-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)) →
    ∃ (v0 : (c : Dev Cert.KernelIdeal.nD) → Buf (Elt Ideal) ((c.tc : Thread Cert.KernelIdeal.nD Cert.KernelIdeal.τ).loc Cert.KernelIdeal.main_v75)) (v1 : (c : Dev Cert.KernelIdeal.nD) → Buf (Elt Ideal) ((c.tc : Thread Cert.KernelIdeal.nD Cert.KernelIdeal.τ).loc Cert.KernelIdeal.main_v82)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v75) = v0 c
          ∧ r.2.mem ((c.tc : Thread Cert.KernelIdeal.nD Cert.KernelIdeal.τ).loc Cert.KernelIdeal.main_v82) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_v87) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S20000x768 : Shape := ⟨2, ![20000, 768]⟩
abbrev S80000x300 : Shape := ⟨2, ![80000, 300]⟩
abbrev S1000000 : Shape := ⟨1, ![1000000]⟩
abbrev S300x768 : Shape := ⟨2, ![300, 768]⟩
abbrev S768 : Shape := ⟨1, ![768]⟩
abbrev S768x64 : Shape := ⟨2, ![768, 64]⟩
abbrev S64 : Shape := ⟨1, ![64]⟩
abbrev S64x64 : Shape := ⟨2, ![64, 64]⟩
abbrev S2x1000000 : Shape := ⟨2, ![2, 1000000]⟩
abbrev S10000 : Shape := ⟨1, ![10000]⟩
abbrev S100000 : Shape := ⟨1, ![100000]⟩
abbrev S_ : Shape := ⟨0, ![]⟩

class Facts : Prop where
  bcast_S_S20000x768 : S_.BroadcastsInDim S20000x768 (![] : Fin 0 → Fin S20000x768.rank)
  reducesTo_S20000x768_S_d0_1 : S20000x768.ReducesTo [0, 1] S_
  h_S_ : 0 < S_.numel
  bcast_S_S80000x300 : S_.BroadcastsInDim S80000x300 (![] : Fin 0 → Fin S80000x300.rank)
  reducesTo_S80000x300_S_d0_1 : S80000x300.ReducesTo [0, 1] S_
  bcast_S_S1000000 : S_.BroadcastsInDim S1000000 (![] : Fin 0 → Fin S1000000.rank)
  reducesTo_S1000000_S_d0 : S1000000.ReducesTo [0] S_
  bcast_S_S300x768 : S_.BroadcastsInDim S300x768 (![] : Fin 0 → Fin S300x768.rank)
  reducesTo_S300x768_S_d0_1 : S300x768.ReducesTo [0, 1] S_
  bcast_S_S768 : S_.BroadcastsInDim S768 (![] : Fin 0 → Fin S768.rank)
  reducesTo_S768_S_d0 : S768.ReducesTo [0] S_
  bcast_S_S768x64 : S_.BroadcastsInDim S768x64 (![] : Fin 0 → Fin S768x64.rank)
  reducesTo_S768x64_S_d0_1 : S768x64.ReducesTo [0, 1] S_
  bcast_S_S64 : S_.BroadcastsInDim S64 (![] : Fin 0 → Fin S64.rank)
  reducesTo_S64_S_d0 : S64.ReducesTo [0] S_
  bcast_S_S64x64 : S_.BroadcastsInDim S64x64 (![] : Fin 0 → Fin S64x64.rank)
  reducesTo_S64x64_S_d0_1 : S64x64.ReducesTo [0, 1] S_

variable [Facts]

def fn_part2 {F : FTy → Type} [FloatOps F] (main_arg7 : FVec F S64x64 .f32) (main_arg8 : FVec F S64 .f32) (main_v33 : IVec S_ 1) : IVec S_ 1 :=
  let main_v34 : FVec F S64x64 .f32 := Host.absf main_arg7
  let main_cst_12 : FVec F S_ .f32 := constant S_ .f32 0x7F800000#32
  let main_v35 : FVec F S64x64 .f32 := broadcastInDim S64x64 ![] bcast_S_S64x64 main_cst_12
  let main_v36 : IVec S64x64 1 := cmpf .olt main_v34 main_v35
  let main_c_13 : IVec S_ 1 := constantI S_ 1 1#1
  let main_v37 : IVec S_ 1 := (fun x v => Host.reduce IntOp.andi x v reducesTo_S64x64_S_d0_1 h_S_) main_v36 main_c_13
  let main_v38 : IVec S_ 1 := andi main_v33 main_v37
  let main_v39 : FVec F S64 .f32 := Host.absf main_arg8
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  main_v43

def fn_part1 {F : FTy → Type} [FloatOps F] (main_arg4 : FVec F S768 .f32) (main_arg5 : FVec F S768x64 .f32) (main_arg6 : FVec F S64 .f32) (main_arg7 : FVec F S64x64 .f32) (main_arg8 : FVec F S64 .f32) (main_v13 : IVec S_ 1) (main_v16 : IVec S300x768 1) : IVec S_ 1 :=
  let main_c_5 : IVec S_ 1 := constantI S_ 1 1#1
  let main_v17 : IVec S_ 1 := (fun x v => Host.reduce IntOp.andi x v reducesTo_S300x768_S_d0_1 h_S_) main_v16 main_c_5
  let main_v18 : IVec S_ 1 := andi main_v13 main_v17
  let main_v19 : FVec F S768 .f32 := Host.absf main_arg4
  let main_cst_6 : FVec F S_ .f32 := constant S_ .f32 0x7F800000#32
  let main_v20 : FVec F S768 .f32 := broadcastInDim S768 ![] bcast_S_S768 main_cst_6
  let main_v21 : IVec S768 1 := cmpf .olt main_v19 main_v20
  let main_c_7 : IVec S_ 1 := constantI S_ 1 1#1
  let main_v22 : IVec S_ 1 := (fun x v => Host.reduce IntOp.andi x v reducesTo_S768_S_d0 h_S_) main_v21 main_c_7
  let main_v23 : IVec S_ 1 := andi main_v18 main_v22
  let main_v24 : FVec F S768x64 .f32 := Host.absf main_arg5
  let main_cst_8 : FVec F S_ .f32 := constant S_ .f32 0x7F800000#32
  let main_v25 : FVec F S768x64 .f32 := broadcastInDim S768x64 ![] bcast_S_S768x64 main_cst_8
  let main_v26 : IVec S768x64 1 := cmpf .olt main_v24 main_v25
  let main_c_9 : IVec S_ 1 := constantI S_ 1 1#1
  let main_v27 : IVec S_ 1 := (fun x v => Host.reduce IntOp.andi x v reducesTo_S768x64_S_d0_1 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_v33

def fn {F : FTy → Type} [FloatOps F] (main_arg0 : FVec F S20000x768 .f32) (main_arg1 : FVec F S80000x300 .f32) (main_arg2 : FVec F S1000000 .f32) (main_arg3 : FVec F S300x768 .f32) (main_arg4 : FVec F S768 .f32) (main_arg5 : FVec F S768x64 .f32) (main_arg6 : FVec F S64 .f32) (main_arg7 : FVec F S64x64 .f32) (main_arg8 : FVec F S64 .f32) (main_arg9 : IVec S2x1000000 32) (main_arg10 : IVec S10000 32) (main_arg11 : IVec S100000 32) : IVec S_ 1 :=
  let main_v0 : FVec F S20000x768 .f32 := Host.absf main_arg0
  let main_cst : FVec F S_ .f32 := constant S_ .f32 0x7F800000#32
  let main_v1 : FVec F S20000x768 .f32 := broadcastInDim S20000x768 ![] bcast_S_S20000x768 main_cst
  let main_v2 : IVec S20000x768 1 := cmpf .olt main_v0 main_v1
  let main_c : IVec S_ 1 := constantI S_ 1 1#1
  let main_v3 : IVec S_ 1 := (fun x v => Host.reduce IntOp.andi x v reducesTo_S20000x768_S_d0_1 h_S_) main_v2 main_c
  let main_v4 : FVec F S80000x300 .f32 := Host.absf main_arg1
  let main_cst_0 : FVec F S_ .f32 := constant S_ .f32 0x7F800000#32
  let main_v5 : FVec F S80000x300 .f32 := broadcastInDim S80000x300 ![] bcast_S_S80000x300 main_cst_0
  let main_v6 : IVec S80000x300 1 := cmpf .olt main_v4 main_v5
  let main_c_1 : IVec S_ 1 := constantI S_ 1 1#1
  let main_v7 : IVec S_ 1 := (fun x v => Host.reduce IntOp.andi x v reducesTo_S80000x300_S_d0_1 h_S_) main_v6 main_c_1
  let main_v8 : IVec S_ 1 := andi main_v3 main_v7
  let main_v9 : FVec F S1000000 .f32 := Host.absf main_arg2
  let main_cst_2 : FVec F S_ .f32 := constant S_ .f32 0x7F800000#32
  let main_v10 : FVec F S1000000 .f32 := broadcastInDim S1000000 ![] bcast_S_S1000000 main_cst_2
  let main_v11 : IVec S1000000 1 := cmpf .olt main_v9 main_v10
  let main_c_3 : IVec S_ 1 := constantI S_ 1 1#1
  let main_v12 : IVec S_ 1 := (fun x v => Host.reduce IntOp.andi x v reducesTo_S1000000_S_d0 h_S_) main_v11 main_c_3
  let main_v13 : IVec S_ 1 := andi main_v8 main_v12
  let main_v14 : FVec F S300x768 .f32 := Host.absf main_arg3
  let main_cst_4 : FVec F S_ .f32 := constant S_ .f32 0x7F800000#32
  let main_v15 : FVec F S300x768 .f32 := broadcastInDim S300x768 ![] bcast_S_S300x768 main_cst_4
  let main_v16 : IVec S300x768 1 := cmpf .olt main_v14 main_v15
  fn_part1 (F := F) main_arg4 main_arg5 main_arg6 main_arg7 main_arg8 main_v13 main_v16
-- ==== Kernel.lean ====
abbrev S20000x768 : Shape := ⟨2, ![20000, 768]⟩
abbrev S80000x300 : Shape := ⟨2, ![80000, 300]⟩
abbrev S1000000 : Shape := ⟨1, ![1000000]⟩
abbrev S300x768 : Shape := ⟨2, ![300, 768]⟩
abbrev S768 : Shape := ⟨1, ![768]⟩
abbrev S768x64 : Shape := ⟨2, ![768, 64]⟩
abbrev S64 : Shape := ⟨1, ![64]⟩
abbrev S64x64 : Shape := ⟨2, ![64, 64]⟩
abbrev S2x1000000 : Shape := ⟨2, ![2, 1000000]⟩
abbrev S10000 : Shape := ⟨1, ![10000]⟩
abbrev S100000 : Shape := ⟨1, ![100000]⟩
abbrev S1x768 : Shape := ⟨2, ![1, 768]⟩
abbrev S80000x768 : Shape := ⟨2, ![80000, 768]⟩
abbrev S2000x300 : Shape := ⟨2, ![2000, 300]⟩
abbrev S2000x768 : Shape := ⟨2, ![2000, 768]⟩
abbrev S100000x768 : Shape := ⟨2, ![100000, 768]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S2000x64 : Shape := ⟨2, ![2000, 64]⟩
abbrev S1100000x64 : Shape := ⟨2, ![1100000, 64]⟩
abbrev S1x64 : Shape := ⟨2, ![1, 64]⟩
abbrev S10000x1 : Shape := ⟨2, ![10000, 1]⟩
abbrev S10000x64 : Shape := ⟨2, ![10000, 64]⟩

abbrev nBuf : Space → Nat
  | .hbm => 116
  | .vmem => 17
  | .smem => 0
  | _ => 0

abbrev bufTy : (tb : Table) → Fin (tcTables nBuf tb) → BufTy
  | .hbm, ⟨0, _⟩ => ⟨S20000x768, .f32⟩
  | .hbm, ⟨1, _⟩ => ⟨S80000x300, .f32⟩
  | .hbm, ⟨2, _⟩ => ⟨S1000000, .f32⟩
  | .hbm, ⟨3, _⟩ => ⟨S300x768, .f32⟩
  | .hbm, ⟨4, _⟩ => ⟨S768, .f32⟩
  | .hbm, ⟨5, _⟩ => ⟨S768x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x1000000, .i32⟩
  | .hbm, ⟨10, _⟩ => ⟨S10000, .i32⟩
  | .hbm, ⟨11, _⟩ => ⟨S100000, .i32⟩
  | .hbm, ⟨12, _⟩ => ⟨S1x768, .f32⟩
  | .hbm, ⟨13, _⟩ => ⟨S80000x768, .f32⟩
  | .hbm, ⟨14, _⟩ => ⟨S100000x768, .f32⟩
  | .hbm, ⟨15, _⟩ => ⟨S1x1000000, .i32⟩
  | .hbm, ⟨16, _⟩ => ⟨S1000000, .i32⟩
  | .hbm, ⟨17, _⟩ => ⟨S1x1000000, .i32⟩
  | .hbm, ⟨18, _⟩ => ⟨S1000000, .i32⟩
  | .hbm, ⟨19, _⟩ => ⟨S100000, .i32⟩
  | .hbm, ⟨20, _⟩ => ⟨S1100000, .i32⟩
  | .hbm, ⟨21, _⟩ => ⟨S1100000, .i32⟩
  | .hbm, ⟨22, _⟩ => ⟨S_, .f32⟩
  | .hbm, ⟨23, _⟩ => ⟨S100000, .f32⟩
  | .hbm, ⟨24, _⟩ => ⟨S1100000, .f32⟩
  | .hbm, ⟨25, _⟩ => ⟨S_, .f32⟩
  | .hbm, ⟨26, _⟩ => ⟨S100000, .f32⟩
  | .hbm, ⟨27, _⟩ => ⟨S1100000x1, .i32⟩
  | .hbm, ⟨28, _⟩ => ⟨S100000, .f32⟩
  | .hbm, ⟨29, _⟩ => ⟨S_, .f32⟩
  | .hbm, ⟨30, _⟩ => ⟨S100000, .f32⟩
  | .hbm, ⟨31, _⟩ => ⟨S100000, .i1⟩
  | .hbm, ⟨32, _⟩ => ⟨S_, .f32⟩
  | .hbm, ⟨33, _⟩ => ⟨S100000, .f32⟩
  | .hbm, ⟨34, _⟩ => ⟨S100000, .f32⟩
  | .hbm, ⟨35, _⟩ => ⟨S100000, .f32⟩
  | .hbm, ⟨36, _⟩ => ⟨S_, .f32⟩
  | .hbm, ⟨37, _⟩ => ⟨S_, .f32⟩
  | .hbm, ⟨38, _⟩ => ⟨S100000, .f32⟩
  | .hbm, ⟨39, _⟩ => ⟨S100000, .f32⟩
  | .hbm, ⟨40, _⟩ => ⟨S_, .i32⟩
  | .hbm, ⟨41, _⟩ => ⟨S1100000, .i32⟩
  | .hbm, ⟨42, _⟩ => ⟨S1100000, .i1⟩
  | .hbm, ⟨43, _⟩ => ⟨S_, .i32⟩
  | .hbm, ⟨44, _⟩ => ⟨S1100000, .i32⟩
  | .hbm, ⟨45, _⟩ => ⟨S1100000, .i32⟩
  | .hbm, ⟨46, _⟩ => ⟨S1100000, .i32⟩
  | .hbm, ⟨47, _⟩ => ⟨S1100000x1, .i32⟩
  | .hbm, ⟨48, _⟩ => ⟨S1100000, .f32⟩
  | .hbm, ⟨49, _⟩ => ⟨S1100000, .f32⟩
  | .hbm, ⟨50, _⟩ => ⟨S_, .i32⟩
  | .hbm, ⟨51, _⟩ => ⟨S1100000, .i32⟩
  | .hbm, ⟨52, _⟩ => ⟨S1100000, .i1⟩
  | .hbm, ⟨53, _⟩ => ⟨S_, .i32⟩
  | .hbm, ⟨54, _⟩ => ⟨S1100000, .i32⟩
  | .hbm, ⟨55, _⟩ => ⟨S1100000, .i32⟩
  | .hbm, ⟨56, _⟩ => ⟨S1100000, .i32⟩
  | .hbm, ⟨57, _⟩ => ⟨S1100000x1, .i32⟩
  | .hbm, ⟨58, _⟩ => ⟨S1100000, .f32⟩
  | .hbm, ⟨59, _⟩ => ⟨S1100000, .f32⟩
  | .hbm, ⟨60, _⟩ => ⟨S100000x64, .f32⟩
  | .hbm, ⟨61, _⟩ => ⟨S_, .i32⟩
  | .hbm, ⟨62, _⟩ => ⟨S1100000, .i32⟩
  | .hbm, ⟨63, _⟩ => ⟨S1100000, .i1⟩
  | .hbm, ⟨64, _⟩ => ⟨S_, .i32⟩
  | .hbm, ⟨65, _⟩ => ⟨S1100000, .i32⟩
  | .hbm, ⟨66, _⟩ => ⟨S1100000, .i32⟩
  | .hbm, ⟨67, _⟩ => ⟨S1100000, .i32⟩
  | .hbm, ⟨68, _⟩ => ⟨S1100000x1, .i32⟩
  | .hbm, ⟨69, _⟩ => ⟨S1100000x64, .f32⟩
  | .hbm, ⟨70, _⟩ => ⟨S1100000x1, .f32⟩
  | .hbm, ⟨71, _⟩ => ⟨S1100000x64, .f32⟩
  | .hbm, ⟨72, _⟩ => ⟨S1100000x64, .f32⟩
  | .hbm, ⟨73, _⟩ => ⟨S_, .f32⟩
  | .hbm, ⟨74, _⟩ => ⟨S100000x64, .f32⟩
  | .hbm, ⟨75, _⟩ => ⟨S1100000x1, .i32⟩
  | .hbm, ⟨76, _⟩ => ⟨S100000x64, .f32⟩
  | .hbm, ⟨77, _⟩ => ⟨S1x64, .f32⟩
  | .hbm, ⟨78, _⟩ => ⟨S100000x64, .f32⟩
  | .hbm, ⟨79, _⟩ => ⟨S_, .i32⟩
  | .hbm, ⟨80, _⟩ => ⟨S1100000, .i32⟩
  | .hbm, ⟨81, _⟩ => ⟨S1100000, .i1⟩
  | .hbm, ⟨82, _⟩ => ⟨S_, .i32⟩
  | .hbm, ⟨83, _⟩ => ⟨S1100000, .i32⟩
  | .hbm, ⟨84, _⟩ => ⟨S1100000, .i32⟩
  | .hbm, ⟨85, _⟩ => ⟨S1100000, .i32⟩
  | .hbm, ⟨86, _⟩ => ⟨S1100000x1, .i32⟩
  | .hbm, ⟨87, _⟩ => ⟨S1100000x64, .f32⟩
  | .hbm, ⟨88, _⟩ => ⟨S1100000x1, .f32⟩
  | .hbm, ⟨89, _⟩ => ⟨S1100000x64, .f32⟩
  | .hbm, ⟨90, _⟩ => ⟨S1100000x64, .f32⟩
  | .hbm, ⟨91, _⟩ => ⟨S_, .f32⟩
  | .hbm, ⟨92, _⟩ => ⟨S100000x64, .f32⟩
  | .hbm, ⟨93, _⟩ => ⟨S1100000x1, .i32⟩
  | .hbm, ⟨94, _⟩ => ⟨S100000x64, .f32⟩
  | .hbm, ⟨95, _⟩ => ⟨S1x64, .f32⟩
  | .hbm, ⟨96, _⟩ => ⟨S100000x64, .f32⟩
  | .hbm, ⟨97, _⟩ => ⟨S100000x64, .f32⟩
  | .hbm, ⟨98, _⟩ => ⟨S_, .i32⟩
  | .hbm, ⟨99, _⟩ => ⟨S10000, .i32⟩
  | .hbm, ⟨100, _⟩ => ⟨S10000, .i1⟩
  | .hbm, ⟨101, _⟩ => ⟨S_, .i32⟩
  | .hbm, ⟨102, _⟩ => ⟨S10000, .i32⟩
  | .hbm, ⟨103, _⟩ => ⟨S10000, .i32⟩
  | .hbm, ⟨104, _⟩ => ⟨S10000, .i32⟩
  | .hbm, ⟨105, _⟩ => ⟨S10000x1, .i32⟩
  | .hbm, ⟨106, _⟩ => ⟨S10000x64, .f32⟩
  | .hbm, ⟨107, _⟩ => ⟨S_, .i32⟩
  | .hbm, ⟨108, _⟩ => ⟨S10000, .i32⟩
  | .hbm, ⟨109, _⟩ => ⟨S10000, .i1⟩
  | .hbm, ⟨110, _⟩ => ⟨S_, .i32⟩
  | .hbm, ⟨111, _⟩ => ⟨S10000, .i32⟩
  | .hbm, ⟨112, _⟩ => ⟨S10000, .i32⟩
  | .hbm, ⟨113, _⟩ => ⟨S10000, .i32⟩
  | .hbm, ⟨114, _⟩ => ⟨S10000x1, .i32⟩
  | .hbm, ⟨115, _⟩ => ⟨S10000, .i32⟩
  | .local _ .vmem, ⟨0, _⟩ => ⟨S2000x300, .f32⟩
  | .local _ .vmem, ⟨1, _⟩ => ⟨S2000x300, .f32⟩
  | .local _ .vmem, ⟨2, _⟩ => ⟨S300x768, .f32⟩
  | .local _ .vmem, ⟨3, _⟩ => ⟨S1x768, .f32⟩
  | .local _ .vmem, ⟨4, _⟩ => ⟨S2000x768, .f32⟩
  | .local _ .vmem, ⟨5, _⟩ => ⟨S2000x768, .f32⟩
  | .local _ .vmem, ⟨6, _⟩ => ⟨S2000x768, .f32⟩
  | .local _ .vmem, ⟨7, _⟩ => ⟨S2000x768, .f32⟩
  | .local _ .vmem, ⟨8, _⟩ => ⟨S768x64, .f32⟩
  | .local _ .vmem, ⟨9, _⟩ => ⟨S2000x64, .f32⟩
  | .local _ .vmem, ⟨10, _⟩ => ⟨S2000x64, .f32⟩
  | .local _ .vmem, ⟨11, _⟩ => ⟨S2000x64, .f32⟩
  | .local _ .vmem, ⟨12, _⟩ => ⟨S2000x64, .f32⟩
  | .local _ .vmem, ⟨13, _⟩ => ⟨S1x64, .f32⟩
  | .local _ .vmem, ⟨14, _⟩ => ⟨S64x64, .f32⟩
  | .local _ .vmem, ⟨15, _⟩ => ⟨S2000x64, .f32⟩
  | .local _ .vmem, ⟨16, _⟩ => ⟨S2000x64, .f32⟩
  | _, _ => ⟨S20000x768, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_cst : Ref sig .tc := ⟨.hbm, 22, rfl⟩
abbrev main_v10 : Ref sig .tc := ⟨.hbm, 23, rfl⟩
abbrev main_v11 : Ref sig .tc := ⟨.hbm, 24, rfl⟩
abbrev main_cst_0 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_cst_1 : Ref sig .tc := ⟨.hbm, 29, rfl⟩
abbrev main_v15 : Ref sig .tc := ⟨.hbm, 30, rfl⟩
abbrev main_v16 : Ref sig .tc := ⟨.hbm, 31, rfl⟩
abbrev main_cst_2 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_3 : Ref sig .tc := ⟨.hbm, 36, rfl⟩
abbrev main_call0_v0 : Ref sig .tc := ⟨.hbm, 37, rfl⟩
abbrev main_call0_v1 : Ref sig .tc := ⟨.hbm, 38, rfl⟩
abbrev main_v20 : Ref sig .tc := ⟨.hbm, 39, rfl⟩
abbrev main_c : Ref sig .tc := ⟨.hbm, 40, rfl⟩
abbrev main_v21 : Ref sig .tc := ⟨.hbm, 41, rfl⟩
abbrev main_v22 : Ref sig .tc := ⟨.hbm, 42, rfl⟩
abbrev main_c_4 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_c_5 : Ref sig .tc := ⟨.hbm, 50, rfl⟩
abbrev main_v29 : Ref sig .tc := ⟨.hbm, 51, rfl⟩
abbrev main_v30 : Ref sig .tc := ⟨.hbm, 52, rfl⟩
abbrev main_c_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_c_7 : Ref sig .tc := ⟨.hbm, 61, rfl⟩
abbrev main_v38 : Ref sig .tc := ⟨.hbm, 62, rfl⟩
abbrev main_v39 : Ref sig .tc := ⟨.hbm, 63, rfl⟩
abbrev main_c_8 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_cst_9 : Ref sig .tc := ⟨.hbm, 73, rfl⟩
abbrev main_v48 : Ref sig .tc := ⟨.hbm, 74, rfl⟩
abbrev main_v49 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_c_10 : Ref sig .tc := ⟨.hbm, 79, rfl⟩
abbrev main_v53 : Ref sig .tc := ⟨.hbm, 80, rfl⟩
abbrev main_v54 : Ref sig .tc := ⟨.hbm, 81, rfl⟩
abbrev main_c_11 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_cst_12 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_c_13 : Ref sig .tc := ⟨.hbm, 98, rfl⟩
abbrev main_v69 : Ref sig .tc := ⟨.hbm, 99, rfl⟩
abbrev main_v70 : Ref sig .tc := ⟨.hbm, 100, rfl⟩
abbrev main_c_14 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩
abbrev main_c_15 : Ref sig .tc := ⟨.hbm, 107, rfl⟩
abbrev main_v76 : Ref sig .tc := ⟨.hbm, 108, rfl⟩
abbrev main_v77 : Ref sig .tc := ⟨.hbm, 109, rfl⟩
abbrev main_c_16 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg2_0 : Ref sig .tc := ⟨.vmem, 9, rfl⟩
abbrev cc1_stg2_1 : Ref sig .tc := ⟨.vmem, 10, rfl⟩
abbrev cc2_stg0_0 : Ref sig .tc := ⟨.vmem, 11, rfl⟩
abbrev cc2_stg0_1 : Ref sig .tc := ⟨.vmem, 12, rfl⟩
abbrev cc2_stg1_0 : Ref sig .tc := ⟨.vmem, 13, rfl⟩
abbrev cc2_stg2_0 : Ref sig .tc := ⟨.vmem, 14, rfl⟩
abbrev cc2_stg3_0 : Ref sig .tc := ⟨.vmem, 15, rfl⟩
abbrev cc2_stg3_1 : Ref sig .tc := ⟨.vmem, 16, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5
abbrev cc1_sem0_0 : DmaSem sig := 6
abbrev cc1_sem0_1 : DmaSem sig := 7
abbrev cc1_sem1_0 : DmaSem sig := 8
abbrev cc1_sem2_0 : DmaSem sig := 9
abbrev cc1_sem2_1 : DmaSem sig := 10
abbrev cc2_sem0_0 : DmaSem sig := 11
abbrev cc2_sem0_1 : DmaSem sig := 12
abbrev cc2_sem1_0 : DmaSem sig := 13
abbrev cc2_sem2_0 : DmaSem sig := 14
abbrev cc2_sem3_0 : DmaSem sig := 15
abbrev cc2_sem3_1 : DmaSem sig := 16

abbrev nD : Nat := 1
abbrev τ : Topo := Topo.v7x

variable {F : FTy → Type} [FloatOps F]

abbrev grid0 : Pipeline.Grid := ⟨1, ![40], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x300 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S300x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x768 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S2000x768 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev grid1 : Pipeline.Grid := ⟨1, ![50], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x768 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S768x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S2000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![50], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S1x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 1 → Memref sig .tc .vmem S64x64 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 2 → Memref sig .tc .vmem S2000x64 .f32 := fun | 0 => Memref.whole cc2_stg3_0 | 1 => Memref.whole cc2_stg3_1 | ⟨_ + 2, h⟩ => absurd h (Nat.not_lt.2 (Nat.le_add_left _ _))
abbrev sem2_3 : Fin 2 → DmaSem sig := fun | 0 => cc2_sem3_0 | 1 => cc2_sem3_1 | ⟨_ + 2, h⟩ => absurd h (Nat.not_lt.2 (Nat.le_add_left _ _))
abbrev reads2_3 : Fin grid2.rank → Bool := ![true]

class Facts₀ : Prop where
  shapeCasts_S768_S1x768 : S768.ShapeCasts S1x768
  inb_S2000x300_S2000x300_0_0 : ∀ a, (![0, 0] : Fin 2 → Nat) a + S2000x300.size a ≤ S2000x300.size a
  h_S2000x300 : 0 < S2000x300.numel
  bitsLt_bf16_f32 : FTy.bits .bf16 < FTy.bits .f32
  inb_S300x768_S300x768_0_0 : ∀ a, (![0, 0] : Fin 2 → Nat) a + S300x768.size a ≤ S300x768.size a
  h_S300x768 : 0 < S300x768.numel
  inb_S1x768_S1x768_0_0 : ∀ a, (![0, 0] : Fin 2 → Nat) a + S1x768.size a ≤ S1x768.size a
  h_S1x768 : 0 < S1x768.numel
  shapeCasts_S1x768_S1x768 : S1x768.ShapeCasts S1x768
  broadcasts_S1x768_S2000x768 : S1x768.Broadcasts S2000x768
  inb_S2000x768_S2000x768_0_0 : ∀ a, (![0, 0] : Fin 2 → Nat) a + S2000x768.size a ≤ S2000x768.size a
  h_S2000x768 : 0 < S2000x768.numel
  concatenates_S20000x768_S80000x768_S100000x768_d0 : Shape.Concatenates [S20000x768, S80000x768] S100000x768 0
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  shapeCasts_S2000x768_S2000x768 : S2000x768.ShapeCasts S2000x768
  inb_S768x64_S768x64_0_0 : ∀ a, (![0, 0] : Fin 2 → Nat) a + S768x64.size a ≤ S768x64.size a
  h_S768x64 : 0 < S768x64.numel
  inb_S2000x64_S2000x64_0_0 : ∀ a, (![0, 0] : Fin 2 → Nat) a + S2000x64.size a ≤ S2000x64.size a
  h_S2000x64 : 0 < S2000x64.numel
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  shapeCasts_S64_S1x64 : S64.ShapeCasts S1x64
  shapeCasts_S2000x64_S2000x64 : S2000x64.ShapeCasts S2000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S64x64_S64x64_0_0 : ∀ a, (![0, 0] : Fin 2 → Nat) a + S64x64.size a ≤ S64x64.size a
  h_S64x64 : 0 < S64x64.numel
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S10000 : S_.BroadcastsInDim S10000 (![] : Fin 0 → Fin S10000.rank)
  bcast_S10000_S10000x1_0 : S10000.BroadcastsInDim S10000x1 (![0] : Fin 1 → Fin S10000x1.rank)
  dot_S2000x300_S300x768_S2000x768_1_0_0_1_n_n_wf : DotDims.WF S2000x300 S300x768 S2000x768 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S2000x768_S768x64_S2000x64_1_0_0_1_n_n_wf : DotDims.WF S2000x768 S768x64 S2000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S2000x64_S64x64_S2000x64_1_0_0_1_n_n_wf : DotDims.WF S2000x64 S64x64 S2000x64 [1] [0] [0] [1] [] []
  gather_S100000x64_S10000x1_S10000x64_1_0_n_n_0_1_164_wf : GatherDims.WF S100000x64 S10000x1 S10000x64 [1] [0] [] [0] [] 1 ![1, 64]
  gather_S100000_S10000x1_S10000_n_0_n_n_0_1_1_wf : GatherDims.WF S100000 S10000x1 S10000 [] [0] [] [0] [] 1 ![1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x300.size a ≤ S80000x300.size a
  hwx0_0 : ∀ i : grid0.Coords, EltTy.bits .f32 = 32 ∨ (Rect.block (s := S80000x300) S2000x300.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S300x768.size a ≤ S300x768.size a
  hwx0_1 : ∀ i : grid0.Coords, EltTy.bits .f32 = 32 ∨ (Rect.block (s := S300x768) S300x768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x768.size a ≤ S1x768.size a
  hwx0_2 : ∀ i : grid0.Coords, EltTy.bits .f32 = 32 ∨ (Rect.block (s := S1x768) S1x768.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S2000x768.size a ≤ S80000x768.size a
  hwx0_3 : ∀ i : grid0.Coords, EltTy.bits .f32 = 32 ∨ (Rect.block (s := S80000x768) S2000x768.size (cc0_transform_3 i) (hinb0_3 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x768.size a ≤ S100000x768.size a
  hwx1_0 : ∀ i : grid1.Coords, EltTy.bits .f32 = 32 ∨ (Rect.block (s := S100000x768) S2000x768.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S768x64.size a ≤ S768x64.size a
  hwx1_1 : ∀ i : grid1.Coords, EltTy.bits .f32 = 32 ∨ (Rect.block (s := S768x64) S768x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S2000x64.size a ≤ S100000x64.size a
  hwx1_2 : ∀ i : grid1.Coords, EltTy.bits .f32 = 32 ∨ (Rect.block (s := S100000x64) S2000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x64.size a ≤ S100000x64.size a
  hwx2_0 : ∀ i : grid2.Coords, EltTy.bits .f32 = 32 ∨ (Rect.block (s := S100000x64) S2000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S1x64.size a ≤ S1x64.size a
  hwx2_1 : ∀ i : grid2.Coords, EltTy.bits .f32 = 32 ∨ (Rect.block (s := S1x64) S1x64.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x64.size a ≤ S64x64.size a
  hwx2_2 : ∀ i : grid2.Coords, EltTy.bits .f32 = 32 ∨ (Rect.block (s := S64x64) S64x64.size (cc2_transform_2 i) (hinb2_2 i)).WholeWords (EltTy.packing .f32)
  hstage2_3 : ∀ j, (stage2_3 j).IsWhole
  nbuf2_3 : grid2.bufCount reads2_3 false = 2
  hreads2_3 : ∀ i i' : grid2.Coords, (∀ a, reads2_3 a = true → i a = i' a) → cc2_transform_3 i = cc2_transform_3 i'
  hinb2_3 : ∀ (i : grid2.Coords) a, (cc2_transform_3 i a + 1) * S2000x64.size a ≤ S100000x64.size a
  hwx2_3 : ∀ i : grid2.Coords, EltTy.bits .f32 = 32 ∨ (Rect.block (s := S100000x64) S2000x64.size (cc2_transform_3 i) (hinb2_3 i)).WholeWords (EltTy.packing .f32)

variable [Facts₀]

def dot_S2000x300_S300x768_S2000x768_1_0_0_1_n_n : DotDims S2000x300 S300x768 S2000x768 where
  lhsContracting := [1]
  rhsContracting := [0]
  lhsNonContracting := [0]
  rhsNonContracting := [1]
  lhsBatch := []
  rhsBatch := []
  wf := dot_S2000x300_S300x768_S2000x768_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S2000x768_S768x64_S2000x64_1_0_0_1_n_n : DotDims S2000x768 S768x64 S2000x64 where
  lhsContracting := [1]
  rhsContracting := [0]
  lhsNonContracting := [0]
  rhsNonContracting := [1]
  lhsBatch := []
  rhsBatch := []
  wf := dot_S2000x768_S768x64_S2000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S2000x64_S64x64_S2000x64_1_0_0_1_n_n : DotDims S2000x64 S64x64 S2000x64 where
  lhsContracting := [1]
  rhsContracting := [0]
  lhsNonContracting := [0]
  rhsNonContracting := [1]
  lhsBatch := []
  rhsBatch := []
  wf := dot_S2000x64_S64x64_S2000x64_1_0_0_1_n_n_wf
def gather_S100000x64_S10000x1_S10000x64_1_0_n_n_0_1_164 : GatherDims S100000x64 S10000x1 S10000x64 where
  offsetDims := [1]
  collapsedSliceDims := [0]
  operandBatchingDims := []
  startIndicesBatchingDims := []
  startIndexMap := [0]
  indexVectorDim := 1
  sliceSizes := ![1, 64]
  wf := gather_S100000x64_S10000x1_S10000x64_1_0_n_n_0_1_164_wf
def gather_S100000_S10000x1_S10000_n_0_n_n_0_1_1 : GatherDims S100000 S10000x1 S10000 where
  offsetDims := []
  collapsedSliceDims := [0]
  operandBatchingDims := []
  startIndicesBatchingDims := []
  startIndexMap := [0]
  indexVectorDim := 1
  sliceSizes := ![1]
  wf := gather_S100000_S10000x1_S10000_n_0_n_n_0_1_1_wf

abbrev win0_0 : Pipeline.Window sig grid0 :=
  Pipeline.Window.ofSpec (Memref.whole main_arg1) S2000x300.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg3) S300x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x768.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v1) S2000x768.size cc0_transform_3 reads0_3 true false 2 stage0_3 sem0_3
    hrank0 hreads0_3 hinb0_3 nbuf0_3 (Memref.isWhole_whole _) hwx0_3 hstage0_3

abbrev win0 : Fin 4 → Pipeline.Window sig grid0 := fun | 0 => win0_0 | 1 => win0_1 | 2 => win0_2 | 3 => win0_3 | ⟨_ + 4, h⟩ => absurd h (Nat.not_lt.2 (Nat.le_add_left _ _))
abbrev spec0 : Fin 4 → Pipeline.WinSpec sig grid0.rank := fun w => (win0 w).toWinSpec

abbrev win1_0 : Pipeline.Window sig grid1 :=
  Pipeline.Window.ofSpec (Memref.whole main_v2) S2000x768.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg5) S768x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v37) S2000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v50) S2000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v51) S1x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_arg7) S64x64.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v52) S2000x64.size cc2_transform_3 reads2_3 true false 2 stage2_3 sem2_3
    hrank2 hreads2_3 hinb2_3 nbuf2_3 (Memref.isWhole_whole _) hwx2_3 hstage2_3

abbrev win2 : Fin 4 → Pipeline.Window sig grid2 := fun | 0 => win2_0 | 1 => win2_1 | 2 => win2_2 | 3 => win2_3 | ⟨_ + 4, h⟩ => absurd h (Nat.not_lt.2 (Nat.le_add_left _ _))
abbrev spec2 : Fin 4 → Pipeline.WinSpec sig grid2.rank := fun w => (win2 w).toWinSpec

class Facts : Prop extends Facts₀ where

variable [Facts]
-- ==== ReferenceIdeal.lean ====
abbrev S20000x768 : Shape := ⟨2, ![20000, 768]⟩
abbrev S80000x300 : Shape := ⟨2, ![80000, 300]⟩
abbrev S1000000 : Shape := ⟨1, ![1000000]⟩
abbrev S300x768 : Shape := ⟨2, ![300, 768]⟩
abbrev S768 : Shape := ⟨1, ![768]⟩
abbrev S768x64 : Shape := ⟨2, ![768, 64]⟩
abbrev S64 : Shape := ⟨1, ![64]⟩
abbrev S64x64 : Shape := ⟨2, ![64, 64]⟩
abbrev S2x1000000 : Shape := ⟨2, ![2, 1000000]⟩
abbrev S10000 : Shape := ⟨1, ![10000]⟩
abbrev S100000 : Shape := ⟨1, ![100000]⟩
abbrev S80000x768 : Shape := ⟨2, ![80000, 768]⟩
abbrev S1x768 : Shape := ⟨2, ![1, 768]⟩
abbrev S100000x768 : Shape := ⟨2, ![100000, 768]⟩
abbrev S1x1000000 : Shape := ⟨2, ![1, 1000000]⟩
abbrev S1100000 : Shape := ⟨1, ![1100000]⟩
abbrev S_ : Shape := ⟨0, ![]⟩
abbrev S1100000x1 : Shape := ⟨2, ![1100000, 1]⟩
abbrev S100000x64 : Shape := ⟨2, ![100000, 64]⟩
abbrev S1100000x64 : Shape := ⟨2, ![1100000, 64]⟩
abbrev S1x64 : Shape := ⟨2, ![1, 64]⟩
abbrev S10000x1 : Shape := ⟨2, ![10000, 1]⟩
abbrev S10000x64 : Shape := ⟨2, ![10000, 64]⟩

abbrev nBuf : Space → Nat
  | .hbm => 123
  | .vmem => 0
  | .smem => 0
  | _ => 0

abbrev bufTy : (tb : Table) → Fin (tcTables nBuf tb) → BufTy
  | .hbm, ⟨0, _⟩ => ⟨S20000x768, .f32⟩
  | .hbm, ⟨1, _⟩ => ⟨S80000x300, .f32⟩
  | .hbm, ⟨2, _⟩ => ⟨S1000000, .f32⟩
  | .hbm, ⟨3, _⟩ => ⟨S300x768, .f32⟩
  | .hbm, ⟨4, _⟩ => ⟨S768, .f32⟩
  | .hbm, ⟨5, _⟩ => ⟨S768x64, .f32⟩
  | .hbm, ⟨6, _⟩ => ⟨S64, .f32⟩
  | .hbm, ⟨7, _⟩ => ⟨S64x64, .f32⟩
  | .hbm, ⟨8, _⟩ => ⟨S64, .f32⟩
  | .hbm, ⟨9, _⟩ => ⟨S2x1000000, .i32⟩
  | .hbm, ⟨10, _⟩ => ⟨S10000, .i32⟩
  | .hbm, ⟨11, _⟩ => ⟨S100000, .i32⟩
  | .hbm, ⟨12, _⟩ => ⟨S80000x768, .f32⟩
  | .hbm, ⟨13, _⟩ => ⟨S1x768, .f32⟩
  | .hbm, ⟨14, _⟩ => ⟨S80000x768, .f32⟩
  | .hbm, ⟨15, _⟩ => ⟨S80000x768, .f32⟩
  | .hbm, ⟨16, _⟩ => ⟨S100000x768, .f32⟩
  | .hbm, ⟨17, _⟩ => ⟨S1x1000000, .i32⟩
  | .hbm, ⟨18, _⟩ => ⟨S1000000, .i32⟩
  | .hbm, ⟨19, _⟩ => ⟨S1x1000000, .i32⟩
  | .hbm, ⟨20, _⟩ => ⟨S1000000, .i32⟩
  | .hbm, ⟨21, _⟩ => ⟨S100000, .i32⟩
  | .hbm, ⟨22, _⟩ => ⟨S1100000, .i32⟩
  | .hbm, ⟨23, _⟩ => ⟨S1100000, .i32⟩
  | .hbm, ⟨24, _⟩ => ⟨S_, .f32⟩
  | .hbm, ⟨25, _⟩ => ⟨S100000, .f32⟩
  | .hbm, ⟨26, _⟩ => ⟨S1100000, .f32⟩
  | .hbm, ⟨27, _⟩ => ⟨S_, .f32⟩
  | .hbm, ⟨28, _⟩ => ⟨S100000, .f32⟩
  | .hbm, ⟨29, _⟩ => ⟨S1100000x1, .i32⟩
  | .hbm, ⟨30, _⟩ => ⟨S100000, .f32⟩
  | .hbm, ⟨31, _⟩ => ⟨S_, .f32⟩
  | .hbm, ⟨32, _⟩ => ⟨S100000, .f32⟩
  | .hbm, ⟨33, _⟩ => ⟨S100000, .i1⟩
  | .hbm, ⟨34, _⟩ => ⟨S_, .f32⟩
  | .hbm, ⟨35, _⟩ => ⟨S100000, .f32⟩
  | .hbm, ⟨36, _⟩ => ⟨S100000, .f32⟩
  | .hbm, ⟨37, _⟩ => ⟨S100000, .f32⟩
  | .hbm, ⟨38, _⟩ => ⟨S_, .f32⟩
  | .hbm, ⟨39, _⟩ => ⟨S_, .f32⟩
  | .hbm, ⟨40, _⟩ => ⟨S100000, .f32⟩
  | .hbm, ⟨41, _⟩ => ⟨S100000, .f32⟩
  | .hbm, ⟨42, _⟩ => ⟨S_, .i32⟩
  | .hbm, ⟨43, _⟩ => ⟨S1100000, .i32⟩
  | .hbm, ⟨44, _⟩ => ⟨S1100000, .i1⟩
  | .hbm, ⟨45, _⟩ => ⟨S_, .i32⟩
  | .hbm, ⟨46, _⟩ => ⟨S1100000, .i32⟩
  | .hbm, ⟨47, _⟩ => ⟨S1100000, .i32⟩
  | .hbm, ⟨48, _⟩ => ⟨S1100000, .i32⟩
  | .hbm, ⟨49, _⟩ => ⟨S1100000x1, .i32⟩
  | .hbm, ⟨50, _⟩ => ⟨S1100000, .f32⟩
  | .hbm, ⟨51, _⟩ => ⟨S1100000, .f32⟩
  | .hbm, ⟨52, _⟩ => ⟨S_, .i32⟩
  | .hbm, ⟨53, _⟩ => ⟨S1100000, .i32⟩
  | .hbm, ⟨54, _⟩ => ⟨S1100000, .i1⟩
  | .hbm, ⟨55, _⟩ => ⟨S_, .i32⟩
  | .hbm, ⟨56, _⟩ => ⟨S1100000, .i32⟩
  | .hbm, ⟨57, _⟩ => ⟨S1100000, .i32⟩
  | .hbm, ⟨58, _⟩ => ⟨S1100000, .i32⟩
  | .hbm, ⟨59, _⟩ => ⟨S1100000x1, .i32⟩
  | .hbm, ⟨60, _⟩ => ⟨S1100000, .f32⟩
  | .hbm, ⟨61, _⟩ => ⟨S1100000, .f32⟩
  | .hbm, ⟨62, _⟩ => ⟨S100000x64, .f32⟩
  | .hbm, ⟨63, _⟩ => ⟨S_, .i32⟩
  | .hbm, ⟨64, _⟩ => ⟨S1100000, .i32⟩
  | .hbm, ⟨65, _⟩ => ⟨S1100000, .i1⟩
  | .hbm, ⟨66, _⟩ => ⟨S_, .i32⟩
  | .hbm, ⟨67, _⟩ => ⟨S1100000, .i32⟩
  | .hbm, ⟨68, _⟩ => ⟨S1100000, .i32⟩
  | .hbm, ⟨69, _⟩ => ⟨S1100000, .i32⟩
  | .hbm, ⟨70, _⟩ => ⟨S1100000x1, .i32⟩
  | .hbm, ⟨71, _⟩ => ⟨S1100000x64, .f32⟩
  | .hbm, ⟨72, _⟩ => ⟨S1100000x1, .f32⟩
  | .hbm, ⟨73, _⟩ => ⟨S1100000x64, .f32⟩
  | .hbm, ⟨74, _⟩ => ⟨S1100000x64, .f32⟩
  | .hbm, ⟨75, _⟩ => ⟨S_, .f32⟩
  | .hbm, ⟨76, _⟩ => ⟨S100000x64, .f32⟩
  | .hbm, ⟨77, _⟩ => ⟨S1100000x1, .i32⟩
  | .hbm, ⟨78, _⟩ => ⟨S100000x64, .f32⟩
  | .hbm, ⟨79, _⟩ => ⟨S1x64, .f32⟩
  | .hbm, ⟨80, _⟩ => ⟨S100000x64, .f32⟩
  | .hbm, ⟨81, _⟩ => ⟨S100000x64, .f32⟩
  | .hbm, ⟨82, _⟩ => ⟨S_, .f32⟩
  | .hbm, ⟨83, _⟩ => ⟨S100000x64, .f32⟩
  | .hbm, ⟨84, _⟩ => ⟨S100000x64, .f32⟩
  | .hbm, ⟨85, _⟩ => ⟨S100000x64, .f32⟩
  | .hbm, ⟨86, _⟩ => ⟨S_, .i32⟩
  | .hbm, ⟨87, _⟩ => ⟨S1100000, .i32⟩
  | .hbm, ⟨88, _⟩ => ⟨S1100000, .i1⟩
  | .hbm, ⟨89, _⟩ => ⟨S_, .i32⟩
  | .hbm, ⟨90, _⟩ => ⟨S1100000, .i32⟩
  | .hbm, ⟨91, _⟩ => ⟨S1100000, .i32⟩
  | .hbm, ⟨92, _⟩ => ⟨S1100000, .i32⟩
  | .hbm, ⟨93, _⟩ => ⟨S1100000x1, .i32⟩
  | .hbm, ⟨94, _⟩ => ⟨S1100000x64, .f32⟩
  | .hbm, ⟨95, _⟩ => ⟨S1100000x1, .f32⟩
  | .hbm, ⟨96, _⟩ => ⟨S1100000x64, .f32⟩
  | .hbm, ⟨97, _⟩ => ⟨S1100000x64, .f32⟩
  | .hbm, ⟨98, _⟩ => ⟨S_, .f32⟩
  | .hbm, ⟨99, _⟩ => ⟨S100000x64, .f32⟩
  | .hbm, ⟨100, _⟩ => ⟨S1100000x1, .i32⟩
  | .hbm, ⟨101, _⟩ => ⟨S100000x64, .f32⟩
  | .hbm, ⟨102, _⟩ => ⟨S1x64, .f32⟩
  | .hbm, ⟨103, _⟩ => ⟨S100000x64, .f32⟩
  | .hbm, ⟨104, _⟩ => ⟨S100000x64, .f32⟩
  | .hbm, ⟨105, _⟩ => ⟨S_, .i32⟩
  | .hbm, ⟨106, _⟩ => ⟨S10000, .i32⟩
  | .hbm, ⟨107, _⟩ => ⟨S10000, .i1⟩
  | .hbm, ⟨108, _⟩ => ⟨S_, .i32⟩
  | .hbm, ⟨109, _⟩ => ⟨S10000, .i32⟩
  | .hbm, ⟨110, _⟩ => ⟨S10000, .i32⟩
  | .hbm, ⟨111, _⟩ => ⟨S10000, .i32⟩
  | .hbm, ⟨112, _⟩ => ⟨S10000x1, .i32⟩
  | .hbm, ⟨113, _⟩ => ⟨S10000x64, .f32⟩
  | .hbm, ⟨114, _⟩ => ⟨S_, .i32⟩
  | .hbm, ⟨115, _⟩ => ⟨S10000, .i32⟩
  | .hbm, ⟨116, _⟩ => ⟨S10000, .i1⟩
  | .hbm, ⟨117, _⟩ => ⟨S_, .i32⟩
  | .hbm, ⟨118, _⟩ => ⟨S10000, .i32⟩
  | .hbm, ⟨119, _⟩ => ⟨S10000, .i32⟩
  | .hbm, ⟨120, _⟩ => ⟨S10000, .i32⟩
  | .hbm, ⟨121, _⟩ => ⟨S10000x1, .i32⟩
  | .hbm, ⟨122, _⟩ => ⟨S10000, .i32⟩
  | _, _ => ⟨S20000x768, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_cst : Ref sig .tc := ⟨.hbm, 24, rfl⟩
abbrev main_v12 : Ref sig .tc := ⟨.hbm, 25, rfl⟩
abbrev main_v13 : Ref sig .tc := ⟨.hbm, 26, rfl⟩
abbrev main_cst_0 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_cst_1 : Ref sig .tc := ⟨.hbm, 31, rfl⟩
abbrev main_v17 : Ref sig .tc := ⟨.hbm, 32, rfl⟩
abbrev main_v18 : Ref sig .tc := ⟨.hbm, 33, rfl⟩
abbrev main_cst_2 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_cst_3 : Ref sig .tc := ⟨.hbm, 38, rfl⟩
abbrev main_call0_v0 : Ref sig .tc := ⟨.hbm, 39, rfl⟩
abbrev main_call0_v1 : Ref sig .tc := ⟨.hbm, 40, rfl⟩
abbrev main_v22 : Ref sig .tc := ⟨.hbm, 41, rfl⟩
abbrev main_c : Ref sig .tc := ⟨.hbm, 42, rfl⟩
abbrev main_v23 : Ref sig .tc := ⟨.hbm, 43, rfl⟩
abbrev main_v24 : Ref sig .tc := ⟨.hbm, 44, rfl⟩
abbrev main_c_4 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_c_5 : Ref sig .tc := ⟨.hbm, 52, rfl⟩
abbrev main_v31 : Ref sig .tc := ⟨.hbm, 53, rfl⟩
abbrev main_v32 : Ref sig .tc := ⟨.hbm, 54, rfl⟩
abbrev main_c_6 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_c_7 : Ref sig .tc := ⟨.hbm, 63, rfl⟩
abbrev main_v40 : Ref sig .tc := ⟨.hbm, 64, rfl⟩
abbrev main_v41 : Ref sig .tc := ⟨.hbm, 65, rfl⟩
abbrev main_c_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_cst_9 : Ref sig .tc := ⟨.hbm, 75, rfl⟩
abbrev main_v50 : Ref sig .tc := ⟨.hbm, 76, rfl⟩
abbrev main_v51 : Ref sig .tc := ⟨.hbm, 77, rfl⟩
abbrev main_v52 : Ref sig .tc := ⟨.hbm, 78, rfl⟩
abbrev main_v53 : Ref sig .tc := ⟨.hbm, 79, rfl⟩
abbrev main_v54 : Ref sig .tc := ⟨.hbm, 80, rfl⟩
abbrev main_v55 : Ref sig .tc := ⟨.hbm, 81, rfl⟩
abbrev main_call1_cst : Ref sig .tc := ⟨.hbm, 82, rfl⟩
abbrev main_call1_v0 : Ref sig .tc := ⟨.hbm, 83, rfl⟩
abbrev main_v56 : Ref sig .tc := ⟨.hbm, 84, rfl⟩
abbrev main_v57 : Ref sig .tc := ⟨.hbm, 85, rfl⟩
abbrev main_c_10 : Ref sig .tc := ⟨.hbm, 86, rfl⟩
abbrev main_v58 : Ref sig .tc := ⟨.hbm, 87, rfl⟩
abbrev main_v59 : Ref sig .tc := ⟨.hbm, 88, rfl⟩
abbrev main_c_11 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_cst_12 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_c_13 : Ref sig .tc := ⟨.hbm, 105, rfl⟩
abbrev main_v74 : Ref sig .tc := ⟨.hbm, 106, rfl⟩
abbrev main_v75 : Ref sig .tc := ⟨.hbm, 107, rfl⟩
abbrev main_c_14 : Ref sig .tc := ⟨.hbm, 108, rfl⟩
abbrev main_v76 : Ref sig .tc := ⟨.hbm, 109, rfl⟩
abbrev main_v77 : Ref sig .tc := ⟨.hbm, 110, rfl⟩
abbrev main_v78 : Ref sig .tc := ⟨.hbm, 111, rfl⟩
abbrev main_v79 : Ref sig .tc := ⟨.hbm, 112, rfl⟩
abbrev main_v80 : Ref sig .tc := ⟨.hbm, 113, rfl⟩
abbrev main_c_15 : Ref sig .tc := ⟨.hbm, 114, rfl⟩
abbrev main_v81 : Ref sig .tc := ⟨.hbm, 115, rfl⟩
abbrev main_v82 : Ref sig .tc := ⟨.hbm, 116, rfl⟩
abbrev main_c_16 : Ref sig .tc := ⟨.hbm, 117, rfl⟩
abbrev main_v83 : Ref sig .tc := ⟨.hbm, 118, rfl⟩
abbrev main_v84 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩

abbrev nD : Nat := 1
abbrev τ : Topo := Topo.v7x

variable {F : FTy → Type} [FloatOps F]

class Facts₀ : Prop where
  bcast_S768_S1x768_1 : S768.BroadcastsInDim S1x768 (![1] : Fin 1 → Fin S1x768.rank)
  bcast_S1x768_S80000x768_0_1 : S1x768.BroadcastsInDim S80000x768 (![0, 1] : Fin 2 → Fin S80000x768.rank)
  concatenates_S20000x768_S80000x768_S100000x768_d0 : Shape.Concatenates [S20000x768, S80000x768] S100000x768 0
  slices_S2x1000000_S1x1000000_0_0 : S2x1000000.Slices ![0, 0] S1x1000000
  shapeCasts_S1x1000000_S1000000 : S1x1000000.ShapeCasts S1000000
  slices_S2x1000000_S1x1000000_1_0 : S2x1000000.Slices ![1, 0] S1x1000000
  concatenates_S1000000_S100000_S1100000_d0 : Shape.Concatenates [S1000000, S100000] S1100000 0
  bcast_S_S100000 : S_.BroadcastsInDim S100000 (![] : Fin 0 → Fin S100000.rank)
  bcast_S1100000_S1100000x1_0 : S1100000.BroadcastsInDim S1100000x1 (![0] : Fin 1 → Fin S1100000x1.rank)
  bcast_S_S1100000 : S_.BroadcastsInDim S1100000 (![] : Fin 0 → Fin S1100000.rank)
  bcast_S1100000x1_S1100000x64_0_1 : S1100000x1.BroadcastsInDim S1100000x64 (![0, 1] : Fin 2 → Fin S1100000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  bcast_S_S10000 : S_.BroadcastsInDim S10000 (![] : Fin 0 → Fin S10000.rank)
  bcast_S10000_S10000x1_0 : S10000.BroadcastsInDim S10000x1 (![0] : Fin 1 → Fin S10000x1.rank)
  dot_S80000x300_S300x768_S80000x768_1_0_0_1_n_n_wf : DotDims.WF S80000x300 S300x768 S80000x768 [1] [0] [0] [1] [] []
  scatter_S100000_S1100000x1_S1100000_n_0_0_1_wf : ScatterDims.WF S100000 S1100000x1 S1100000 [] [0] [0] 1
  gather_S100000_S1100000x1_S1100000_n_0_n_n_0_1_1_wf : GatherDims.WF S100000 S1100000x1 S1100000 [] [0] [] [0] [] 1 ![1]
  dot_S100000x768_S768x64_S100000x64_1_0_0_1_n_n_wf : DotDims.WF S100000x768 S768x64 S100000x64 [1] [0] [0] [1] [] []
  gather_S100000x64_S1100000x1_S1100000x64_1_0_n_n_0_1_164_wf : GatherDims.WF S100000x64 S1100000x1 S1100000x64 [1] [0] [] [0] [] 1 ![1, 64]
  scatter_S100000x64_S1100000x1_S1100000x64_1_0_0_1_wf : ScatterDims.WF S100000x64 S1100000x1 S1100000x64 [1] [0] [0] 1
  dot_S100000x64_S64x64_S100000x64_1_0_0_1_n_n_wf : DotDims.WF S100000x64 S64x64 S100000x64 [1] [0] [0] [1] [] []
  gather_S100000x64_S10000x1_S10000x64_1_0_n_n_0_1_164_wf : GatherDims.WF S100000x64 S10000x1 S10000x64 [1] [0] [] [0] [] 1 ![1, 64]
  gather_S100000_S10000x1_S10000_n_0_n_n_0_1_1_wf : GatherDims.WF S100000 S10000x1 S10000 [] [0] [] [0] [] 1 ![1]

variable [Facts₀]

def dot_S80000x300_S300x768_S80000x768_1_0_0_1_n_n : DotDims S80000x300 S300x768 S80000x768 where
  lhsContracting := [1]
  rhsContracting := [0]
  lhsNonContracting := [0]
  rhsNonContracting := [1]
  lhsBatch := []
  rhsBatch := []
  wf := dot_S80000x300_S300x768_S80000x768_1_0_0_1_n_n_wf
def scatter_S100000_S1100000x1_S1100000_n_0_0_1 : ScatterDims S100000 S1100000x1 S1100000 where
  updateWindowDims := []
  insertedWindowDims := [0]
  scatterDimsToOperandDims := [0]
  indexVectorDim := 1
  wf := scatter_S100000_S1100000x1_S1100000_n_0_0_1_wf
def gather_S100000_S1100000x1_S1100000_n_0_n_n_0_1_1 : GatherDims S100000 S1100000x1 S1100000 where
  offsetDims := []
  collapsedSliceDims := [0]
  operandBatchingDims := []
  startIndicesBatchingDims := []
  startIndexMap := [0]
  indexVectorDim := 1
  sliceSizes := ![1]
  wf := gather_S100000_S1100000x1_S1100000_n_0_n_n_0_1_1_wf
def dot_S100000x768_S768x64_S100000x64_1_0_0_1_n_n : DotDims S100000x768 S768x64 S100000x64 where
  lhsContracting := [1]
  rhsContracting := [0]
  lhsNonContracting := [0]
  rhsNonContracting := [1]
  lhsBatch := []
  rhsBatch := []
  wf := dot_S100000x768_S768x64_S100000x64_1_0_0_1_n_n_wf
def gather_S100000x64_S1100000x1_S1100000x64_1_0_n_n_0_1_164 : GatherDims S100000x64 S1100000x1 S1100000x64 where
  offsetDims := [1]
  collapsedSliceDims := [0]
  operandBatchingDims := []
  startIndicesBatchingDims := []
  startIndexMap := [0]
  indexVectorDim := 1
  sliceSizes := ![1, 64]
  wf := gather_S100000x64_S1100000x1_S1100000x64_1_0_n_n_0_1_164_wf
def scatter_S100000x64_S1100000x1_S1100000x64_1_0_0_1 : ScatterDims S100000x64 S1100000x1 S1100000x64 where
  updateWindowDims := [1]
  insertedWindowDims := [0]
  scatterDimsToOperandDims := [0]
  indexVectorDim := 1
  wf := scatter_S100000x64_S1100000x1_S1100000x64_1_0_0_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S10000x1_S10000x64_1_0_n_n_0_1_164 : GatherDims S100000x64 S10000x1 S10000x64 where
  offsetDims := [1]
  collapsedSliceDims := [0]
  operandBatchingDims := []
  startIndicesBatchingDims := []
  startIndexMap := [0]
  indexVectorDim := 1
  sliceSizes := ![1, 64]
  wf := gather_S100000x64_S10000x1_S10000x64_1_0_n_n_0_1_164_wf
def gather_S100000_S10000x1_S10000_n_0_n_n_0_1_1 : GatherDims S100000 S10000x1 S10000 where
  offsetDims := []
  collapsedSliceDims := [0]
  operandBatchingDims := []
  startIndicesBatchingDims := []
  startIndexMap := [0]
  indexVectorDim := 1
  sliceSizes := ![1]
  wf := gather_S100000_S10000x1_S10000_n_0_n_n_0_1_1_wf

class Facts : Prop extends Facts₀ where

variable [Facts]
-- ==== Proof.Run.lean ====
/-
  The run of the idealized kernel program with EVERY buffer named.

  The program's @main is nine segments: six stretches of host operations and three pallas regions. The buffer
  contents at the segment boundaries are a fold through @main from the launch memory `m`:
  `W1` after the first stretch, `W2` after region 0 (its arrays at what the write-backs of its forty grid
  points leave, every other buffer untouched), `W3 … W5` after the three stretches before region 1, `W6`
  after region 1, `W7` after the next stretch, `W8` after region 2 and `W9` after the last stretch.

  Stated here: every weakly fair execution terminates, without a fault, in a state where every unscoped
  TensorCore buffer `b` of every core `c` holds `W9 m ρ c b`. Both results of @main and all twelve
  arguments are such buffers, so every later statement about a result is a statement about the fold `W9`.
-/
import proofs.«157233_j12919261626719_1_alg».proof.Proof.Gen.KernelIdeal.Frame

set_option maxRecDepth 16384

noncomputable section

namespace Cert.KernelIdeal.Whole

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- Every weakly fair execution of @main from `m` terminates, nothing faulting, with every unscoped buffer of
    every core at the last boundary's contents `W9`: the nine segments launched in order, the last thread
    state read against the final memory. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W9 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl, fun c => by
      dsimp only [Pipeline.Seg.post, hseg, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W9 m ρ c b)
    (hfin := fun c s' => by
      iintro ⟨⟨Hh, -⟩, HSI⟩
      unfold StableHlo.held
      imodintro
      iapply (pointsTo_read_all (Pipeline.ucRefs τ sig) (fun b => (((c : Thread nD τ)).1, b)) (W9 m ρ c) s')
      isplitl [Hh] <;> iassumption)
    (hQ := fun s h c => h c)

/-- A TensorCore buffer that is not scoped is among the buffers `run_all` speaks of. -/
theorem mem_unscoped (b : Ref sig .tc) (h : ¬ (Proc.devRef .tc b : DevRef τ sig).isScoped) :
    Proc.devRef .tc b ∈ Pipeline.ucRefs τ sig := mem_uc b h

end Cert.KernelIdeal.Whole

end
-- ==== Proof.Spec.lean ====
/-
  The three dense steps of the graph convolution, as functions of whole arrays, index by index on the extended reals.

  Each pallas region of the kernel program computes a product of a tall matrix with a small weight matrix, 2000 rows
  at a time; the reference computes the same product in one piece. Over the extended reals a change of float format is
  the identity and a product accumulated into zeros is the plain sum, so both are the one function below: entry
  (p, q) of the result is the sum over k of A(p, k) · B(k, q). Nothing is regrouped: the sum over k is taken in the
  same order on both sides, so no law of arithmetic beyond reading the two programs is needed.
-/
import Idealize.ShloMosaic.PureOps.Ideal
import Idealize.ShloMosaic.Lib.ValueIdx

noncomputable section

namespace Cert.Spec

open Idealize.ShloMosaic Idealize.ShloMosaic.ValueIdx

/-- Row `p` of `A` against column `q` of `B`: the sum over `k` of `A (p, k) * B (k, q)`. -/
def rowDot {M K N : Nat} (A : (⟨2, ![M, K]⟩ : Shape).Idx → EReal) (B : (⟨2, ![K, N]⟩ : Shape).Idx → EReal)
    (p : Fin M) (q : Fin N) : EReal :=
  ∑ k : Fin K, A (ix2 p k) * B (ix2 k q)

/-- The word projection: `A · B` with the one-row bias `b` added to every row. -/
def affine {M K N : Nat} (A : (⟨2, ![M, K]⟩ : Shape).Idx → EReal) (B : (⟨2, ![K, N]⟩ : Shape).Idx → EReal)
    (b : (⟨2, ![1, N]⟩ : Shape).Idx → EReal) : (⟨2, ![M, N]⟩ : Shape).Idx → EReal :=
  fun i => rowDot A B (i 0) (i 1) + b (ix2 (0 : Fin 1) (i 1))

/-- The first layer's transform: `A · B`. -/
def product {M K N : Nat} (A : (⟨2, ![M, K]⟩ : Shape).Idx → EReal) (B : (⟨2, ![K, N]⟩ : Shape).Idx → EReal) :
    (⟨2, ![M, N]⟩ : Shape).Idx → EReal :=
  fun i => rowDot A B (i 0) (i 1)

/-- The second layer's transform: the one-row bias `b` added to every row of `A`, the larger of that and the
    zero word `z` taken entry by entry, and the result multiplied by `B`. -/
def reluProduct {M K N : Nat} (z : EReal) (A : (⟨2, ![M, K]⟩ : Shape).Idx → EReal) (b : (⟨2, ![1, K]⟩ : Shape).Idx → EReal)
    (B : (⟨2, ![K, N]⟩ : Shape).Idx → EReal) : (⟨2, ![M, N]⟩ : Shape).Idx → EReal :=
  fun i => rowDot (fun j => max (A j + b (ix2 (0 : Fin 1) (j 1))) z) B (i 0) (i 1)

end Cert.Spec

end
-- ==== Proof.Region0.lean ====
/-
  Region 0 (the word projection), read as a value.

  The region runs forty grid points. Point `t` fetches rows 2000·t … 2000·t + 1999 of the word features (window 0),
  the whole weight matrix (window 1) and the one-row bias (window 2), and writes back rows 2000·t … 2000·t + 1999 of the
  result (window 3). The value it stores at row `p`, column `q` of its block is the sum over `k` of
  features (2000·t + p, k) · weights (k, q), plus bias (0, q): row 2000·t + p of the whole product with the bias added.
  The forty blocks tile the 80000 rows, so after the region the result array is `Spec.affine` of the three arrays the
  region found, whatever they were.
-/
import proofs.«157233_j12919261626719_1_alg».proof.Proof.Gen.KernelIdeal.Frame
import proofs.«157233_j12919261626719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region0

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The body's stored value at an entry of its block -/

theorem hz : (![0, 0] : Fin 2 → Nat) = fun _ => 0 := funext fun a => by fin_cases a <;> rfl

/-- The left operand's index at output entry `i` and contraction index `q`: row `i 0`. -/
theorem lhs_row (i : S2000x768.Idx) (q : dot_S2000x300_S300x768_S2000x768_1_0_0_1_n_n.contr.Idx) : (dot_S2000x300_S300x768_S2000x768_1_0_0_1_n_n.lhsIdx i q 0).val = (i 0).val := by
  unfold DotDims.lhsIdx
  rw [dif_neg (show ¬(0 : Fin S2000x300.rank) ∈ dot_S2000x300_S300x768_S2000x768_1_0_0_1_n_n.lhsBatch by decide), dif_pos (show (0 : Fin S2000x300.rank) ∈ dot_S2000x300_S300x768_S2000x768_1_0_0_1_n_n.lhsNonContracting by decide)]
  rfl
/-- The right operand's index at output entry `i` and contraction index `q`: column `i 1`. -/
theorem rhs_col (i : S2000x768.Idx) (q : dot_S2000x300_S300x768_S2000x768_1_0_0_1_n_n.contr.Idx) : (dot_S2000x300_S300x768_S2000x768_1_0_0_1_n_n.rhsIdx i q 1).val = (i 1).val := by
  unfold DotDims.rhsIdx
  rw [dif_neg (show ¬(1 : Fin S300x768.rank) ∈ dot_S2000x300_S300x768_S2000x768_1_0_0_1_n_n.rhsBatch by decide), dif_pos (show (1 : Fin S300x768.rank) ∈ dot_S2000x300_S300x768_S2000x768_1_0_0_1_n_n.rhsNonContracting by decide)]
  rfl

/-- The block product into a zero accumulator, read at entry (p, q): row `p` of the left block against column `q` of the
    right operand, the contraction index running over `Fin 300` in its own order. -/
theorem matmul_entry (l : FVec Ideal S2000x300 .bf16) (r : FVec Ideal S300x768 .bf16) (p : Fin 2000) (q : Fin 768) :
    matmul dot_S2000x300_S300x768_S2000x768_1_0_0_1_n_n none l r (constant S2000x768 .f32 0x00000000#32) (ix2 p q) = rowDot (M := 2000) (K := 300) (N := 768) l r p q := by
  refine (Ideal.matmul_constant_zero_apply dot_S2000x300_S300x768_S2000x768_1_0_0_1_n_n none l r (ix2 p q)).trans ?_
  unfold rowDot
  rw [← Equiv.sum_comp (contrEquiv1 dot_S2000x300_S300x768_S2000x768_1_0_0_1_n_n 300 rfl rfl).symm]
  refine Finset.sum_congr rfl fun k _ => ?_
  have hk := contrEquiv1_symm_val dot_S2000x300_S300x768_S2000x768_1_0_0_1_n_n 300 rfl rfl k
  have el : dot_S2000x300_S300x768_S2000x768_1_0_0_1_n_n.lhsIdx (ix2 p q) ((contrEquiv1 dot_S2000x300_S300x768_S2000x768_1_0_0_1_n_n 300 rfl rfl).symm k) = ix2 p k := funext fun a => Fin.ext (by
    match a with
    | ⟨0, _⟩ => exact lhs_row _ _
    | ⟨1, _⟩ => exact (dot_S2000x300_S300x768_S2000x768_1_0_0_1_n_n.lhsIdx_val_of_single rfl (ix2 p q) _).trans hk)
  have er : dot_S2000x300_S300x768_S2000x768_1_0_0_1_n_n.rhsIdx (ix2 p q) ((contrEquiv1 dot_S2000x300_S300x768_S2000x768_1_0_0_1_n_n 300 rfl rfl).symm k) = ix2 k q := funext fun a => Fin.ext (by
    match a with
    | ⟨0, _⟩ => exact (dot_S2000x300_S300x768_S2000x768_1_0_0_1_n_n.rhsIdx_val_of_single rfl (ix2 p q) _).trans hk
    | ⟨1, _⟩ => exact rhs_col _ _)
  rw [el, er]

/-- Entry (p, q) of what the body stores: row `p` of the features block against column `q` of the weights, plus the
    bias at `q` (the casts to the narrow format are the identity on the extended reals, the accumulator is zero). -/
theorem pay_apply (x0 : Vec Ideal S2000x300 .f32) (x1 : Vec Ideal S300x768 .f32) (x2 : Vec Ideal S1x768 .f32)
    (p : Fin 2000) (q : Fin 768) :
    k0_pay1 (F := Ideal) x0 x1 x2 (ix2 p q) = rowDot x0 x1 p q + x2 (ix2 (0 : Fin 1) q) := by
  unfold k0_pay1
  refine (addf_apply _ _ _).trans ?_
  refine congrArg₂ (· + ·) ?_ ?_
  · exact matmul_entry _ _ p q
  · refine (broadcastTo_1b_ab_apply _ broadcasts_S1x768_S2000x768 p q).trans ?_
    rw [shapeCast_self]

/-! ## From blocks to the array -/

section
variable (V : (c : Dev nD) → (b : Ref sig .tc) → Buf (Elt Ideal) ((c : Thread nD τ).loc b))

/-- The printed index maps, decided once over the grid: the row-blocked windows sit at block row `t`, column block 0;
    the whole-array windows stay at block (0, 0); no block of the result overhangs its array. -/
theorem idx_facts : ∀ t : Fin cfg0.N,
    win0_0.index t (0 : Fin 2) = t.val
    ∧ win0_0.index t (1 : Fin 2) = 0
    ∧ win0_1.index t (0 : Fin 2) = 0
    ∧ win0_1.index t (1 : Fin 2) = 0
    ∧ win0_2.index t (0 : Fin 2) = 0
    ∧ win0_2.index t (1 : Fin 2) = 0
    ∧ win0_3.index t (0 : Fin 2) = t.val
    ∧ win0_3.index t (1 : Fin 2) = 0
    ∧ win0_3.xsize (grid0.coords t) (0 : Fin 2) = 2000
    ∧ win0_3.xsize (grid0.coords t) (1 : Fin 2) = 768 :=
  (by decide +kernel : ∀ t : Fin grid0.N, _)

theorem point_lt (t : Fin cfg0.N) : t.val < 40 := by
  have h := t.isLt
  have hN : cfg0.N = 40 := N_0
  omega

/-- Window 0's block at point `t` is rows `2000·t …` of its array: entry (p, k) of the block is entry (2000·t + p, k). -/
theorem read0 (c : Dev nD) (t : Fin cfg0.N) (p : Fin 2000) (k : Fin 300) (h : t.val * 2000 + p.val < 80000) :
    iblk0 V c 0 t (ix2 p k) = V c main_arg1 (ix2 (⟨t.val * 2000 + p.val, h⟩ : Fin 80000) k) := by
  obtain ⟨e0, e1, e2, e3, e4, e5, e6, e7, e8, e9⟩ := idx_facts t
  show V c main_arg1 (((cfg0.win 0).blk t).view.emb (ix2 p k)) = V c main_arg1 _
  refine congrArg _ (funext fun a => Fin.ext ?_)
  match a with
  | ⟨0, _⟩ => show win0_0.index t (0 : Fin 2) * 2000 + 1 * p.val = t.val * 2000 + p.val; omega
  | ⟨1, _⟩ => show win0_0.index t (1 : Fin 2) * 300 + 1 * k.val = k.val; omega

/-- Window 1's block at every point is its whole array. -/
theorem read1 (c : Dev nD) (t : Fin cfg0.N) (p : Fin 300) (k : Fin 768) :
    iblk0 V c 1 t (ix2 p k) = V c main_arg3 (ix2 p k) := by
  obtain ⟨e0, e1, e2, e3, e4, e5, e6, e7, e8, e9⟩ := idx_facts t
  show V c main_arg3 (((cfg0.win 1).blk t).view.emb (ix2 p k)) = V c main_arg3 _
  refine congrArg _ (funext fun a => Fin.ext ?_)
  match a with
  | ⟨0, _⟩ => show win0_1.index t (0 : Fin 2) * 300 + 1 * p.val = p.val; omega
  | ⟨1, _⟩ => show win0_1.index t (1 : Fin 2) * 768 + 1 * k.val = k.val; omega

/-- Window 2's block at every point is its whole array. -/
theorem read2 (c : Dev nD) (t : Fin cfg0.N) (p : Fin 1) (k : Fin 768) :
    iblk0 V c 2 t (ix2 p k) = V c main_v0 (ix2 p k) := by
  obtain ⟨e0, e1, e2, e3, e4, e5, e6, e7, e8, e9⟩ := idx_facts t
  show V c main_v0 (((cfg0.win 2).blk t).view.emb (ix2 p k)) = V c main_v0 _
  refine congrArg _ (funext fun a => Fin.ext ?_)
  match a with
  | ⟨0, _⟩ => show win0_2.index t (0 : Fin 2) * 1 + 1 * p.val = p.val; omega
  | ⟨1, _⟩ => show win0_2.index t (1 : Fin 2) * 768 + 1 * k.val = k.val; omega

/-- WHAT POINT `t` WRITES BACK is block `t` of the whole-array function of the arrays the region found. -/
theorem flushed_eq (c : Dev nD) (t : Fin cfg0.N) :
    (dat0 V c).flushed 3 t = ((cfg0.win 3).blk t).view.read (Elt Ideal) (affine (M := 80000) (K := 300) (N := 768) (V c main_arg1) (V c main_arg3) (V c main_v0)) := by
  show (cfg0.win 3).cut (grid0.coords t) ((dat0 V c).after 3 t) = _
  rw [after0_3]
  unfold out0_3
  rw [View.canon_unit_zero hz]
  simp only [View.ld_unit_zero (S := S2000x300) hz, View.ld_unit_zero (S := S300x768) hz, View.ld_unit_zero (S := S1x768) hz]
  obtain ⟨e0, e1, e2, e3, e4, e5, e6, e7, e8, e9⟩ := idx_facts t
  have hN := point_lt t
  funext j
  obtain ⟨p, q, rfl⟩ : ∃ (p : Fin 2000) (q : Fin 768), j = ix2 p q := ⟨j 0, j 1, eq_ix2 j⟩
  have hrow : t.val * 2000 + p.val < 80000 := by have := p.isLt; omega
  have hemb : ((cfg0.win 3).blk t).view.emb (ix2 p q) = ix2 (⟨t.val * 2000 + p.val, hrow⟩ : Fin 80000) q := funext fun a => Fin.ext (by
    match a with
    | ⟨0, _⟩ => show win0_3.index t (0 : Fin 2) * 2000 + 1 * p.val = t.val * 2000 + p.val; omega
    | ⟨1, _⟩ => show win0_3.index t (1 : Fin 2) * 768 + 1 * q.val = q.val; omega)
  show k0_pay1 (iblk0 V c 0 t) (iblk0 V c 1 t) (iblk0 V c 2 t) (ix2 p q) = (affine (M := 80000) (K := 300) (N := 768) (V c main_arg1) (V c main_arg3) (V c main_v0)) (((cfg0.win 3).blk t).view.emb (ix2 p q))
  rw [hemb]
  refine (pay_apply (iblk0 V c 0 t) (iblk0 V c 1 t) (iblk0 V c 2 t) p q).trans ?_
  show rowDot (iblk0 V c 0 t) (iblk0 V c 1 t) p q + iblk0 V c 2 t (ix2 (0 : Fin 1) q)
    = rowDot (M := 80000) (K := 300) (N := 768) (V c main_arg1) (V c main_arg3) ⟨t.val * 2000 + p.val, hrow⟩ q + V c main_v0 (ix2 (0 : Fin 1) q)
  unfold rowDot
  refine congrArg₂ (· + ·) (Finset.sum_congr rfl fun k _ => ?_) ?_
  · rw [read0 V c t p k hrow, read1 V c t k q]
  · exact read2 V c t 0 q

/-- Every entry of the result array is in SOME point's block: row `r` is in the block of point `r / 2000`. -/
theorem cover (i : S80000x768.Idx) :
    ∃ t : Fin cfg0.N, (cfg0.win 3).flush t = true ∧ i ∈ ((cfg0.win 3).blk t).view.set := by
  have hi0 : (i 0 : Nat) < 80000 := (i 0).isLt
  have hi1 : (i 1 : Nat) < 768 := (i 1).isLt
  have hN : cfg0.N = 40 := N_0
  have ht : (i 0 : Nat) / 2000 < cfg0.N := by rw [hN]; omega
  obtain ⟨e0, e1, e2, e3, e4, e5, e6, e7, e8, e9⟩ := idx_facts ⟨(i 0 : Nat) / 2000, ht⟩
  refine ⟨⟨(i 0 : Nat) / 2000, ht⟩, flush0_3 _, ?_⟩
  show i ∈ ((View.whole main_v1).slice (win0_3.rect ⟨(i 0 : Nat) / 2000, ht⟩)).set
  rw [View.set_slice_whole, Rect.mem_set_unit]
  intro a
  match a with
  | ⟨0, _⟩ =>
    show win0_3.index ⟨(i 0 : Nat) / 2000, ht⟩ 0 * win0_3.size 0 ≤ (i 0 : Nat) ∧ (i 0 : Nat) < win0_3.index ⟨(i 0 : Nat) / 2000, ht⟩ 0 * win0_3.size 0 + win0_3.xsize (grid0.coords ⟨(i 0 : Nat) / 2000, ht⟩) 0
    rw [e6, e8, show win0_3.size 0 = 2000 from rfl]
    show (i 0 : Nat) / 2000 * 2000 ≤ (i 0 : Nat) ∧ (i 0 : Nat) < (i 0 : Nat) / 2000 * 2000 + 2000
    omega
  | ⟨1, _⟩ =>
    show win0_3.index ⟨(i 0 : Nat) / 2000, ht⟩ 1 * win0_3.size 1 ≤ (i 1 : Nat) ∧ (i 1 : Nat) < win0_3.index ⟨(i 0 : Nat) / 2000, ht⟩ 1 * win0_3.size 1 + win0_3.xsize (grid0.coords ⟨(i 0 : Nat) / 2000, ht⟩) 1
    rw [e7, e9]
    omega

/-- THE ARRAY after the region: the whole-array function of the arrays the region found. -/
theorem final (c : Dev nD) : (dat0 V c).arrAt 3 cfg0.N = affine (M := 80000) (K := 300) (N := 768) (V c main_arg1) (V c main_arg3) (V c main_v0) :=
  (dat0 V c).arrAt_eq_of_cover 3 _ (fun t _ => flushed_eq V c t) cover

end

end Cert.KernelIdeal.Region0

end
-- ==== Proof.RefStages.lean ====
/-
  The reference's three dense stages as whole-array functions.

  The reference computes each product in one piece: `dot_general` of the whole left operand with the weights, and for
  the word projection a broadcast bias added, for the second layer the bias added and the rectifier applied before the
  product. Read at an entry (p, q) on the extended reals each is the sum over `k` of left (p, k) · weights (k, q) of
  `Spec`, the contraction index in the same order — the same functions the kernel's regions leave in their result
  arrays.
-/
import proofs.«157233_j12919261626719_1_alg».proof.Proof.Gen.ReferenceIdeal.Read
import proofs.«157233_j12919261626719_1_alg».proof.Proof.Spec
import Idealize.ShloMosaic.Lib.ValueLayout

set_option maxRecDepth 16384

noncomputable section

namespace Cert.ReferenceIdeal.Stages

open Cert.ReferenceIdeal Cert.ReferenceIdeal.Read Cert.Spec
open Idealize.ShloMosaic Idealize.ShloMosaic.ValueIdx

/-- The word projection: the product of the word features with the projection weights plus the broadcast bias is
    `Spec.affine` of them, the bias read as a one-row array. -/
theorem word_eq (x1 : (⟨S80000x300, .f32⟩ : BufTy).Contents (Elt Ideal)) (x3 : (⟨S300x768, .f32⟩ : BufTy).Contents (Elt Ideal)) (x4 : (⟨S768, .f32⟩ : BufTy).Contents (Elt Ideal)) (h : S768.ShapeCasts S1x768) :
    val_main_v3 (F := Ideal) x1 x3 x4 = affine (M := 80000) (K := 300) (N := 768) x1 x3 (shapeCast S1x768 x4 h) := by
  funext i
  obtain ⟨p, q, rfl⟩ : ∃ (p : Fin 80000) (q : Fin 768), i = ix2 p q := ⟨i 0, i 1, eq_ix2 i⟩
  rw [val_main_v3_apply, val_main_v0_apply, val_main_v2_apply, val_main_v1_apply]
  show (∑ k : Fin 300, x1 (lidx_main_v0 (ix2 p q) k) * x3 (ridx_main_v0 (ix2 p q) k)) + x4 (idx_main_v1 (idx_main_v2 (ix2 p q)))
    = rowDot (M := 80000) (K := 300) (N := 768) x1 x3 p q + shapeCast S1x768 x4 h (ix2 (0 : Fin 1) q)
  unfold rowDot
  refine congrArg₂ (· + ·) (Finset.sum_congr rfl fun k _ => ?_) ?_
  · have el : lidx_main_v0 (ix2 p q) k = ix2 p k := funext fun a => by
      match a with
      | ⟨0, _⟩ => rfl
      | ⟨1, _⟩ => rfl
    have er : ridx_main_v0 (ix2 p q) k = ix2 k q := funext fun a => by
      match a with
      | ⟨0, _⟩ => rfl
      | ⟨1, _⟩ => rfl
    rw [el, er]
  · rw [shapeCast_a_1a_apply]
    exact congrArg x4 (funext fun a => by
      match a with
      | ⟨0, _⟩ => rfl)

/-- The first layer's transform: the product of the node features with the layer's weights is `Spec.product`. -/
theorem layer1_eq (x0 : (⟨S20000x768, .f32⟩ : BufTy).Contents (Elt Ideal)) (x1 : (⟨S80000x300, .f32⟩ : BufTy).Contents (Elt Ideal)) (x3 : (⟨S300x768, .f32⟩ : BufTy).Contents (Elt Ideal)) (x4 : (⟨S768, .f32⟩ : BufTy).Contents (Elt Ideal)) (x5 : (⟨S768x64, .f32⟩ : BufTy).Contents (Elt Ideal)) :
    val_main_v39 (F := Ideal) x0 x1 x3 x4 x5 = product (M := 100000) (K := 768) (N := 64) (val_main_v4 (F := Ideal) x0 x1 x3 x4) x5 := by
  funext i
  obtain ⟨p, q, rfl⟩ : ∃ (p : Fin 100000) (q : Fin 64), i = ix2 p q := ⟨i 0, i 1, eq_ix2 i⟩
  rw [val_main_v39_apply]
  generalize val_main_v4 (F := Ideal) x0 x1 x3 x4 = y
  show (∑ k : Fin 768, y (lidx_main_v39 (ix2 p q) k) * x5 (ridx_main_v39 (ix2 p q) k)) = rowDot (M := 100000) (K := 768) (N := 64) y x5 p q
  unfold rowDot
  refine Finset.sum_congr rfl fun k _ => ?_
  have el : lidx_main_v39 (ix2 p q) k = ix2 p k := funext fun a => by
    match a with
    | ⟨0, _⟩ => rfl
    | ⟨1, _⟩ => rfl
  have er : ridx_main_v39 (ix2 p q) k = ix2 k q := funext fun a => by
    match a with
    | ⟨0, _⟩ => rfl
    | ⟨1, _⟩ => rfl
  rw [el, er]

/-- The second layer's transform: the first layer's bias added, the rectifier applied, and the product with the
    second layer's weights is `Spec.reluProduct`, the bias read as a one-row array. -/
theorem layer2_eq (x0 : (⟨S20000x768, .f32⟩ : BufTy).Contents (Elt Ideal)) (x1 : (⟨S80000x300, .f32⟩ : BufTy).Contents (Elt Ideal)) (x2 : (⟨S1000000, .f32⟩ : BufTy).Contents (Elt Ideal)) (x3 : (⟨S300x768, .f32⟩ : BufTy).Contents (Elt Ideal)) (x4 : (⟨S768, .f32⟩ : BufTy).Contents (Elt Ideal))
    (x5 : (⟨S768x64, .f32⟩ : BufTy).Contents (Elt Ideal)) (x6 : (⟨S64, .f32⟩ : BufTy).Contents (Elt Ideal)) (x7 : (⟨S64x64, .f32⟩ : BufTy).Contents (Elt Ideal)) (x9 : (⟨S2x1000000, .i32⟩ : BufTy).Contents (Elt Ideal)) (h : S64.ShapeCasts S1x64) :
    val_main_v57 (F := Ideal) x0 x1 x2 x3 x4 x5 x6 x7 x9
      = reluProduct (M := 100000) (K := 64) (N := 64) (Ideal.ofBits .f32 0x00000000#32)
          (val_main_v52 (F := Ideal) x0 x1 x2 x3 x4 x5 x9) (shapeCast S1x64 x6 h) x7 := by
  funext i
  obtain ⟨p, q, rfl⟩ : ∃ (p : Fin 100000) (q : Fin 64), i = ix2 p q := ⟨i 0, i 1, eq_ix2 i⟩
  rw [val_main_v57_apply]
  unfold reluProduct rowDot
  refine Finset.sum_congr rfl fun k _ => ?_
  have el : lidx_main_v57 (ix2 p q) k = ix2 p k := funext fun a => by
    match a with
    | ⟨0, _⟩ => rfl
    | ⟨1, _⟩ => rfl
  have er : ridx_main_v57 (ix2 p q) k = ix2 k q := funext fun a => by
    match a with
    | ⟨0, _⟩ => rfl
    | ⟨1, _⟩ => rfl
  rw [el, er, val_main_v56_apply, val_main_v55_apply, val_main_call1_v0_apply, val_main_call1_cst_apply, val_main_v54_apply, val_main_v53_apply]
  generalize val_main_v52 (F := Ideal) x0 x1 x2 x3 x4 x5 x9 = y
  show max (y (ix2 p k) + x6 (idx_main_v53 (idx_main_v54 (ix2 p k)))) (Ideal.ofBits .f32 0x00000000#32) * x7 (ix2 k q)
    = max (y (ix2 p k) + shapeCast S1x64 x6 h (ix2 (0 : Fin 1) k)) (Ideal.ofBits .f32 0x00000000#32) * x7 (ix2 k q)
  rw [shapeCast_a_1a_apply]
  exact congrArg (fun v => max (y (ix2 p k) + x6 v) (Ideal.ofBits .f32 0x00000000#32) * x7 (ix2 k q)) (funext fun a => by
    match a with
    | ⟨0, _⟩ => rfl)

end Cert.ReferenceIdeal.Stages

end
-- ==== Proof.Bound1.lean ====
/-
  The buffers at the first two boundaries of the kernel program's @main.

  Before region 0 the host only reshapes the projection bias to one row; every argument is as launched. After region 0
  the region's result array holds the word projection — the reference's own stage for it — and every other buffer is
  as the region found it.
-/
import proofs.«157233_j12919261626719_1_alg».proof.Proof.Region0
import proofs.«157233_j12919261626719_1_alg».proof.Proof.RefStages
import Idealize.ShloMosaic.Lib.StableHlo.Run

set_option maxRecDepth 16384

noncomputable section

namespace Cert.KernelIdeal.Bounds

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 0 -/

/-- The bias as region 0 finds it: the argument reshaped to one row. -/
theorem W1_v0 (c : Dev nD) : W1 m ρ c (Proc.devRef .tc main_v0) = shapeCast S1x768 (m ((c : Thread nD τ).loc main_arg4)) shapeCasts_S768_S1x768 := by
  show StableHlo.after hostOps0 (W0 m ρ c) (Proc.devRef .tc main_v0) = _
  after_results
  rfl
theorem W1_arg1 (c : Dev nD) : W1 m ρ c (Proc.devRef .tc main_arg1) = (m ((c : Thread nD τ).loc main_arg1)) := by
  show StableHlo.after hostOps0 (W0 m ρ c) (Proc.devRef .tc main_arg1) = _
  after_results
theorem W1_arg3 (c : Dev nD) : W1 m ρ c (Proc.devRef .tc main_arg3) = (m ((c : Thread nD τ).loc main_arg3)) := by
  show StableHlo.after hostOps0 (W0 m ρ c) (Proc.devRef .tc main_arg3) = _
  after_results

/-! ## After region 0 -/
theorem W2_arg0 (c : Dev nD) : W2 m ρ c (Proc.devRef .tc main_arg0) = (m ((c : Thread nD τ).loc main_arg0)) :=
  (W2_of_ne m ρ c main_arg0 (by decide)).trans (by
    show StableHlo.after hostOps0 (W0 m ρ c) (Proc.devRef .tc main_arg0) = _
    after_results)
theorem W2_arg2 (c : Dev nD) : W2 m ρ c (Proc.devRef .tc main_arg2) = (m ((c : Thread nD τ).loc main_arg2)) :=
  (W2_of_ne m ρ c main_arg2 (by decide)).trans (by
    show StableHlo.after hostOps0 (W0 m ρ c) (Proc.devRef .tc main_arg2) = _
    after_results)
theorem W2_arg5 (c : Dev nD) : W2 m ρ c (Proc.devRef .tc main_arg5) = (m ((c : Thread nD τ).loc main_arg5)) :=
  (W2_of_ne m ρ c main_arg5 (by decide)).trans (by
    show StableHlo.after hostOps0 (W0 m ρ c) (Proc.devRef .tc main_arg5) = _
    after_results)
theorem W2_arg6 (c : Dev nD) : W2 m ρ c (Proc.devRef .tc main_arg6) = (m ((c : Thread nD τ).loc main_arg6)) :=
  (W2_of_ne m ρ c main_arg6 (by decide)).trans (by
    show StableHlo.after hostOps0 (W0 m ρ c) (Proc.devRef .tc main_arg6) = _
    after_results)
theorem W2_arg7 (c : Dev nD) : W2 m ρ c (Proc.devRef .tc main_arg7) = (m ((c : Thread nD τ).loc main_arg7)) :=
  (W2_of_ne m ρ c main_arg7 (by decide)).trans (by
    show StableHlo.after hostOps0 (W0 m ρ c) (Proc.devRef .tc main_arg7) = _
    after_results)
theorem W2_arg8 (c : Dev nD) : W2 m ρ c (Proc.devRef .tc main_arg8) = (m ((c : Thread nD τ).loc main_arg8)) :=
  (W2_of_ne m ρ c main_arg8 (by decide)).trans (by
    show StableHlo.after hostOps0 (W0 m ρ c) (Proc.devRef .tc main_arg8) = _
    after_results)
theorem W2_arg9 (c : Dev nD) : W2 m ρ c (Proc.devRef .tc main_arg9) = (m ((c : Thread nD τ).loc main_arg9)) :=
  (W2_of_ne m ρ c main_arg9 (by decide)).trans (by
    show StableHlo.after hostOps0 (W0 m ρ c) (Proc.devRef .tc main_arg9) = _
    after_results)
theorem W2_arg10 (c : Dev nD) : W2 m ρ c (Proc.devRef .tc main_arg10) = (m ((c : Thread nD τ).loc main_arg10)) :=
  (W2_of_ne m ρ c main_arg10 (by decide)).trans (by
    show StableHlo.after hostOps0 (W0 m ρ c) (Proc.devRef .tc main_arg10) = _
    after_results)
theorem W2_arg11 (c : Dev nD) : W2 m ρ c (Proc.devRef .tc main_arg11) = (m ((c : Thread nD τ).loc main_arg11)) :=
  (W2_of_ne m ρ c main_arg11 (by decide)).trans (by
    show StableHlo.after hostOps0 (W0 m ρ c) (Proc.devRef .tc main_arg11) = _
    after_results)

/-- Region 0's result array is the reference's word projection of the launched arguments. -/
theorem W2_v1 (c : Dev nD) :
    W2 m ρ c (Proc.devRef .tc main_v1) = Cert.ReferenceIdeal.Read.val_main_v3 (F := Ideal) (m ((c : Thread nD τ).loc main_arg1)) (m ((c : Thread nD τ).loc main_arg3)) (m ((c : Thread nD τ).loc main_arg4)) := by
  refine (W2_arr m ρ c 3).trans ?_
  refine (Region0.final (V1 m ρ) c).trans ?_
  show affine (M := 80000) (K := 300) (N := 768) (W1 m ρ c (Proc.devRef .tc main_arg1)) (W1 m ρ c (Proc.devRef .tc main_arg3)) (W1 m ρ c (Proc.devRef .tc main_v0)) = _
  rw [W1_arg1 m ρ c, W1_arg3 m ρ c, W1_v0 m ρ c]
  exact (Cert.ReferenceIdeal.Stages.word_eq _ _ _ _).symm

end Cert.KernelIdeal.Bounds

end
-- ==== Proof.Region1.lean ====
/-
  Region 1 (the first layer's transform), read as a value.

  Fifty grid points. Point `t` fetches rows 2000·t … 2000·t + 1999 of the node features (window 0) and the whole weight
  matrix (window 1), and writes back the same rows of the result (window 2): entry (p, q) of its block is the sum over
  `k` of features (2000·t + p, k) · weights (k, q). The fifty blocks tile the 100000 rows, so after the region the
  result array is `Spec.product` of the two arrays the region found.
-/
import proofs.«157233_j12919261626719_1_alg».proof.Proof.Gen.KernelIdeal.Frame
import proofs.«157233_j12919261626719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region1

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The body's stored value at an entry of its block -/

theorem hz : (![0, 0] : Fin 2 → Nat) = fun _ => 0 := funext fun a => by fin_cases a <;> rfl

/-- The left operand's index at output entry `i` and contraction index `q`: row `i 0`. -/
theorem lhs_row (i : S2000x64.Idx) (q : dot_S2000x768_S768x64_S2000x64_1_0_0_1_n_n.contr.Idx) : (dot_S2000x768_S768x64_S2000x64_1_0_0_1_n_n.lhsIdx i q 0).val = (i 0).val := by
  unfold DotDims.lhsIdx
  rw [dif_neg (show ¬(0 : Fin S2000x768.rank) ∈ dot_S2000x768_S768x64_S2000x64_1_0_0_1_n_n.lhsBatch by decide), dif_pos (show (0 : Fin S2000x768.rank) ∈ dot_S2000x768_S768x64_S2000x64_1_0_0_1_n_n.lhsNonContracting by decide)]
  rfl
/-- The right operand's index at output entry `i` and contraction index `q`: column `i 1`. -/
theorem rhs_col (i : S2000x64.Idx) (q : dot_S2000x768_S768x64_S2000x64_1_0_0_1_n_n.contr.Idx) : (dot_S2000x768_S768x64_S2000x64_1_0_0_1_n_n.rhsIdx i q 1).val = (i 1).val := by
  unfold DotDims.rhsIdx
  rw [dif_neg (show ¬(1 : Fin S768x64.rank) ∈ dot_S2000x768_S768x64_S2000x64_1_0_0_1_n_n.rhsBatch by decide), dif_pos (show (1 : Fin S768x64.rank) ∈ dot_S2000x768_S768x64_S2000x64_1_0_0_1_n_n.rhsNonContracting by decide)]
  rfl

/-- The block product into a zero accumulator, read at entry (p, q): row `p` of the left block against column `q` of the
    right operand, the contraction index running over `Fin 768` in its own order. -/
theorem matmul_entry (l : FVec Ideal S2000x768 .bf16) (r : FVec Ideal S768x64 .bf16) (p : Fin 2000) (q : Fin 64) :
    matmul dot_S2000x768_S768x64_S2000x64_1_0_0_1_n_n none l r (constant S2000x64 .f32 0x00000000#32) (ix2 p q) = rowDot (M := 2000) (K := 768) (N := 64) l r p q := by
  refine (Ideal.matmul_constant_zero_apply dot_S2000x768_S768x64_S2000x64_1_0_0_1_n_n none l r (ix2 p q)).trans ?_
  unfold rowDot
  rw [← Equiv.sum_comp (contrEquiv1 dot_S2000x768_S768x64_S2000x64_1_0_0_1_n_n 768 rfl rfl).symm]
  refine Finset.sum_congr rfl fun k _ => ?_
  have hk := contrEquiv1_symm_val dot_S2000x768_S768x64_S2000x64_1_0_0_1_n_n 768 rfl rfl k
  have el : dot_S2000x768_S768x64_S2000x64_1_0_0_1_n_n.lhsIdx (ix2 p q) ((contrEquiv1 dot_S2000x768_S768x64_S2000x64_1_0_0_1_n_n 768 rfl rfl).symm k) = ix2 p k := funext fun a => Fin.ext (by
    match a with
    | ⟨0, _⟩ => exact lhs_row _ _
    | ⟨1, _⟩ => exact (dot_S2000x768_S768x64_S2000x64_1_0_0_1_n_n.lhsIdx_val_of_single rfl (ix2 p q) _).trans hk)
  have er : dot_S2000x768_S768x64_S2000x64_1_0_0_1_n_n.rhsIdx (ix2 p q) ((contrEquiv1 dot_S2000x768_S768x64_S2000x64_1_0_0_1_n_n 768 rfl rfl).symm k) = ix2 k q := funext fun a => Fin.ext (by
    match a with
    | ⟨0, _⟩ => exact (dot_S2000x768_S768x64_S2000x64_1_0_0_1_n_n.rhsIdx_val_of_single rfl (ix2 p q) _).trans hk
    | ⟨1, _⟩ => exact rhs_col _ _)
  rw [el, er]

/-- Entry (p, q) of what the body stores: row `p` of the features block against column `q` of the weights. -/
theorem pay_apply (x0 : Vec Ideal S2000x768 .f32) (x1 : Vec Ideal S768x64 .f32) (p : Fin 2000) (q : Fin 64) :
    k1_pay1 (F := Ideal) x0 x1 (ix2 p q) = rowDot x0 x1 p q := by
  unfold k1_pay1
  refine (matmul_entry _ _ p q).trans ?_
  rw [shapeCast_self]
  rfl

/-! ## From blocks to the array -/

section
variable (V : (c : Dev nD) → (b : Ref sig .tc) → Buf (Elt Ideal) ((c : Thread nD τ).loc b))

/-- The printed index maps, decided once over the grid: the row-blocked windows sit at block row `t`, column block 0;
    the whole-array windows stay at block (0, 0); no block of the result overhangs its array. -/
theorem idx_facts : ∀ t : Fin cfg1.N,
    win1_0.index t (0 : Fin 2) = t.val
    ∧ win1_0.index t (1 : Fin 2) = 0
    ∧ win1_1.index t (0 : Fin 2) = 0
    ∧ win1_1.index t (1 : Fin 2) = 0
    ∧ win1_2.index t (0 : Fin 2) = t.val
    ∧ win1_2.index t (1 : Fin 2) = 0
    ∧ win1_2.xsize (grid1.coords t) (0 : Fin 2) = 2000
    ∧ win1_2.xsize (grid1.coords t) (1 : Fin 2) = 64 :=
  (by decide +kernel : ∀ t : Fin grid1.N, _)

theorem point_lt (t : Fin cfg1.N) : t.val < 50 := by
  have h := t.isLt
  have hN : cfg1.N = 50 := N_1
  omega

/-- Window 0's block at point `t` is rows `2000·t …` of its array: entry (p, k) of the block is entry (2000·t + p, k). -/
theorem read0 (c : Dev nD) (t : Fin cfg1.N) (p : Fin 2000) (k : Fin 768) (h : t.val * 2000 + p.val < 100000) :
    iblk1 V c 0 t (ix2 p k) = V c main_v2 (ix2 (⟨t.val * 2000 + p.val, h⟩ : Fin 100000) k) := by
  obtain ⟨e0, e1, e2, e3, e4, e5, e6, e7⟩ := idx_facts t
  show V c main_v2 (((cfg1.win 0).blk t).view.emb (ix2 p k)) = V c main_v2 _
  refine congrArg _ (funext fun a => Fin.ext ?_)
  match a with
  | ⟨0, _⟩ => show win1_0.index t (0 : Fin 2) * 2000 + 1 * p.val = t.val * 2000 + p.val; omega
  | ⟨1, _⟩ => show win1_0.index t (1 : Fin 2) * 768 + 1 * k.val = k.val; omega

/-- Window 1's block at every point is its whole array. -/
theorem read1 (c : Dev nD) (t : Fin cfg1.N) (p : Fin 768) (k : Fin 64) :
    iblk1 V c 1 t (ix2 p k) = V c main_arg5 (ix2 p k) := by
  obtain ⟨e0, e1, e2, e3, e4, e5, e6, e7⟩ := idx_facts t
  show V c main_arg5 (((cfg1.win 1).blk t).view.emb (ix2 p k)) = V c main_arg5 _
  refine congrArg _ (funext fun a => Fin.ext ?_)
  match a with
  | ⟨0, _⟩ => show win1_1.index t (0 : Fin 2) * 768 + 1 * p.val = p.val; omega
  | ⟨1, _⟩ => show win1_1.index t (1 : Fin 2) * 64 + 1 * k.val = k.val; omega

/-- WHAT POINT `t` WRITES BACK is block `t` of the whole-array function of the arrays the region found. -/
theorem flushed_eq (c : Dev nD) (t : Fin cfg1.N) :
    (dat1 V c).flushed 2 t = ((cfg1.win 2).blk t).view.read (Elt Ideal) (product (M := 100000) (K := 768) (N := 64) (V c main_v2) (V c main_arg5)) := by
  show (cfg1.win 2).cut (grid1.coords t) ((dat1 V c).after 2 t) = _
  rw [after1_2]
  unfold out1_2
  rw [View.canon_unit_zero hz]
  simp only [View.ld_unit_zero (S := S2000x768) hz, View.ld_unit_zero (S := S768x64) hz]
  obtain ⟨e0, e1, e2, e3, e4, e5, e6, e7⟩ := idx_facts t
  have hN := point_lt t
  funext j
  obtain ⟨p, q, rfl⟩ : ∃ (p : Fin 2000) (q : Fin 64), j = ix2 p q := ⟨j 0, j 1, eq_ix2 j⟩
  have hrow : t.val * 2000 + p.val < 100000 := by have := p.isLt; omega
  have hemb : ((cfg1.win 2).blk t).view.emb (ix2 p q) = ix2 (⟨t.val * 2000 + p.val, hrow⟩ : Fin 100000) q := funext fun a => Fin.ext (by
    match a with
    | ⟨0, _⟩ => show win1_2.index t (0 : Fin 2) * 2000 + 1 * p.val = t.val * 2000 + p.val; omega
    | ⟨1, _⟩ => show win1_2.index t (1 : Fin 2) * 64 + 1 * q.val = q.val; omega)
  show k1_pay1 (iblk1 V c 0 t) (iblk1 V c 1 t) (ix2 p q) = (product (M := 100000) (K := 768) (N := 64) (V c main_v2) (V c main_arg5)) (((cfg1.win 2).blk t).view.emb (ix2 p q))
  rw [hemb]
  refine (pay_apply (iblk1 V c 0 t) (iblk1 V c 1 t) p q).trans ?_
  show rowDot (iblk1 V c 0 t) (iblk1 V c 1 t) p q
    = rowDot (M := 100000) (K := 768) (N := 64) (V c main_v2) (V c main_arg5) ⟨t.val * 2000 + p.val, hrow⟩ q
  unfold rowDot
  refine Finset.sum_congr rfl fun k _ => ?_
  rw [read0 V c t p k hrow, read1 V c t k q]

/-- Every entry of the result array is in SOME point's block: row `r` is in the block of point `r / 2000`. -/
theorem cover (i : S100000x64.Idx) :
    ∃ t : Fin cfg1.N, (cfg1.win 2).flush t = true ∧ i ∈ ((cfg1.win 2).blk t).view.set := by
  have hi0 : (i 0 : Nat) < 100000 := (i 0).isLt
  have hi1 : (i 1 : Nat) < 64 := (i 1).isLt
  have hN : cfg1.N = 50 := N_1
  have ht : (i 0 : Nat) / 2000 < cfg1.N := by rw [hN]; omega
  obtain ⟨e0, e1, e2, e3, e4, e5, e6, e7⟩ := idx_facts ⟨(i 0 : Nat) / 2000, ht⟩
  refine ⟨⟨(i 0 : Nat) / 2000, ht⟩, flush1_2 _, ?_⟩
  show i ∈ ((View.whole main_v37).slice (win1_2.rect ⟨(i 0 : Nat) / 2000, ht⟩)).set
  rw [View.set_slice_whole, Rect.mem_set_unit]
  intro a
  match a with
  | ⟨0, _⟩ =>
    show win1_2.index ⟨(i 0 : Nat) / 2000, ht⟩ 0 * win1_2.size 0 ≤ (i 0 : Nat) ∧ (i 0 : Nat) < win1_2.index ⟨(i 0 : Nat) / 2000, ht⟩ 0 * win1_2.size 0 + win1_2.xsize (grid1.coords ⟨(i 0 : Nat) / 2000, ht⟩) 0
    rw [e4, e6, show win1_2.size 0 = 2000 from rfl]
    show (i 0 : Nat) / 2000 * 2000 ≤ (i 0 : Nat) ∧ (i 0 : Nat) < (i 0 : Nat) / 2000 * 2000 + 2000
    omega
  | ⟨1, _⟩ =>
    show win1_2.index ⟨(i 0 : Nat) / 2000, ht⟩ 1 * win1_2.size 1 ≤ (i 1 : Nat) ∧ (i 1 : Nat) < win1_2.index ⟨(i 0 : Nat) / 2000, ht⟩ 1 * win1_2.size 1 + win1_2.xsize (grid1.coords ⟨(i 0 : Nat) / 2000, ht⟩) 1
    rw [e5, e7]
    omega

/-- THE ARRAY after the region: the whole-array function of the arrays the region found. -/
theorem final (c : Dev nD) : (dat1 V c).arrAt 2 cfg1.N = product (M := 100000) (K := 768) (N := 64) (V c main_v2) (V c main_arg5) :=
  (dat1 V c).arrAt_eq_of_cover 2 _ (fun t _ => flushed_eq V c t) cover

end

end Cert.KernelIdeal.Region1

end
-- ==== Proof.HostRead.lean ====
/-
  Reading a stretch of host operations.

  The contents of a buffer after a list of host operations is the list's fold over the entry contents. The simp pass
  below evaluates that fold at one buffer: each operation's own result buffer reads the operation's function of its
  operand buffers, any other buffer reads what was there before (two references differ by decision). A two-piece
  concatenation is folded into `joined`, whose pieces are plain arguments, so that the pass also evaluates the pieces.
-/
import Idealize.ShloMosaic.Lib.StableHlo.Run

noncomputable section

namespace Cert.HostRead

open Idealize.ShloMosaic

/-- Two arrays joined along an axis, the pieces as plain arguments. -/
def joined {α : Type} (S : Shape) (ax : Fin S.rank) (S1 S2 : Shape) (a : S1.Idx → α) (b : S2.Idx → α)
    (h : Shape.Concatenates [S1, S2] S ax) : S.Idx → α :=
  concatenate S ax [⟨S1, a⟩, ⟨S2, b⟩] h

theorem joined_def {α : Type} (S : Shape) (ax : Fin S.rank) (S1 S2 : Shape) (a : S1.Idx → α) (b : S2.Idx → α)
    (h : Shape.Concatenates [S1, S2] S ax) : concatenate S ax [⟨S1, a⟩, ⟨S2, b⟩] h = joined S ax S1 S2 a b h := rfl

end Cert.HostRead

/-- The contents of one buffer after a literal list of host operations, as the operations' functions of the entry
    contents. -/
macro "host_results" : tactic =>
  `(tactic| simp (disch := decide) only [Idealize.ShloMosaic.StableHlo.after_cons, Idealize.ShloMosaic.StableHlo.after_nil,
      Idealize.ShloMosaic.StableHlo.nullary_result', Idealize.ShloMosaic.StableHlo.unary_result', Idealize.ShloMosaic.StableHlo.binary_result',
      Idealize.ShloMosaic.StableHlo.ternary_result', Idealize.ShloMosaic.StableHlo.quaternary_result', Idealize.ShloMosaic.StableHlo.reshape_result',
      Idealize.ShloMosaic.StableHlo.nary4_result', Idealize.ShloMosaic.StableHlo.nary_result',
      Idealize.ShloMosaic.StableHlo.unaryIndexed_result', Idealize.ShloMosaic.StableHlo.binaryIndexed_result',
      Idealize.ShloMosaic.StableHlo.nullary_result_ne', Idealize.ShloMosaic.StableHlo.unary_result_ne', Idealize.ShloMosaic.StableHlo.binary_result_ne',
      Idealize.ShloMosaic.StableHlo.ternary_result_ne', Idealize.ShloMosaic.StableHlo.quaternary_result_ne', Idealize.ShloMosaic.StableHlo.reshape_result_ne',
      Idealize.ShloMosaic.StableHlo.nary_result_ne', Idealize.ShloMosaic.StableHlo.unaryIndexed_result_ne', Idealize.ShloMosaic.StableHlo.binaryIndexed_result_ne',
      Cert.HostRead.joined_def])

end
-- ==== Proof.HostStepsA.lean ====
/-
  The host operations between regions 0 and 1, stretch by stretch, from ANY entry contents.

  Each lemma reads one buffer after one stretch as the reference's stage for it, given that the stretch's operand
  buffers hold the reference's earlier stages (or the arguments) on entry: the kernel program's host operations are the
  reference's own, in the same order with the same literals. A buffer the stretch does not write keeps its contents.
-/
import proofs.«157233_j12919261626719_1_alg».proof.Proof.Gen.KernelIdeal.Launch
import proofs.«157233_j12919261626719_1_alg».proof.Proof.Gen.ReferenceIdeal.Read
import proofs.«157233_j12919261626719_1_alg».proof.Proof.HostRead

set_option maxRecDepth 16384

noncomputable section

namespace Cert.KernelIdeal.HostSteps

open Cert.KernelIdeal Cert.KernelIdeal.Gen
open Idealize.ShloMosaic Idealize.ShloMosaic.TcCoe Idealize.SL.Sem Idealize.ShloMosaic.StableHlo

variable (Wv : Valuation τ sig (Elt Ideal))

/-! ## First stretch: the node features, the edge lists with self loops, the degrees, the reciprocal square roots -/

/-- The node features: the document features above the word projection. -/
theorem s1_v2 (x0 : (⟨S20000x768, .f32⟩ : BufTy).Contents (Elt Ideal)) (x1 : (⟨S80000x300, .f32⟩ : BufTy).Contents (Elt Ideal)) (x3 : (⟨S300x768, .f32⟩ : BufTy).Contents (Elt Ideal)) (x4 : (⟨S768, .f32⟩ : BufTy).Contents (Elt Ideal))
    (h0 : Wv (Proc.devRef .tc main_arg0) = x0) (h1 : Wv (Proc.devRef .tc main_v1) = Cert.ReferenceIdeal.Read.val_main_v3 (F := Ideal) x1 x3 x4) :
    StableHlo.after hostOps1 Wv (Proc.devRef .tc main_v2) = Cert.ReferenceIdeal.Read.val_main_v4 (F := Ideal) x0 x1 x3 x4 := by
  host_results
  rewrite [h0, h1]
  rfl
/-- The edge sources with the self loops appended. -/
theorem s1_v8 (x9 : (⟨S2x1000000, .i32⟩ : BufTy).Contents (Elt Ideal))
    (h9 : Wv (Proc.devRef .tc main_arg9) = x9) :
    StableHlo.after hostOps1 Wv (Proc.devRef .tc main_v8) = Cert.ReferenceIdeal.Read.val_main_v10 (F := Ideal) x9 := by
  host_results
  rewrite [h9]
  rfl
/-- The edge targets with the self loops appended. -/
theorem s1_v9 (x9 : (⟨S2x1000000, .i32⟩ : BufTy).Contents (Elt Ideal))
    (h9 : Wv (Proc.devRef .tc main_arg9) = x9) :
    StableHlo.after hostOps1 Wv (Proc.devRef .tc main_v9) = Cert.ReferenceIdeal.Read.val_main_v11 (F := Ideal) x9 := by
  host_results
  rewrite [h9]
  rfl
/-- The edge weights with a one per self loop appended. -/
theorem s1_v11 (x2 : (⟨S1000000, .f32⟩ : BufTy).Contents (Elt Ideal))
    (h2 : Wv (Proc.devRef .tc main_arg2) = x2) :
    StableHlo.after hostOps1 Wv (Proc.devRef .tc main_v11) = Cert.ReferenceIdeal.Read.val_main_v13 (F := Ideal) x2 := by
  host_results
  rewrite [h2]
  rfl
/-- Where the degree is positive. -/
theorem s1_v16 (x2 : (⟨S1000000, .f32⟩ : BufTy).Contents (Elt Ideal)) (x9 : (⟨S2x1000000, .i32⟩ : BufTy).Contents (Elt Ideal))
    (h2 : Wv (Proc.devRef .tc main_arg2) = x2) (h9 : Wv (Proc.devRef .tc main_arg9) = x9) :
    StableHlo.after hostOps1 Wv (Proc.devRef .tc main_v16) = Cert.ReferenceIdeal.Read.val_main_v18 (F := Ideal) x2 x9 := by
  host_results
  rewrite [h2, h9]
  rfl
/-- The reciprocal square root of the clamped degree. -/
theorem s1_v19 (x2 : (⟨S1000000, .f32⟩ : BufTy).Contents (Elt Ideal)) (x9 : (⟨S2x1000000, .i32⟩ : BufTy).Contents (Elt Ideal))
    (h2 : Wv (Proc.devRef .tc main_arg2) = x2) (h9 : Wv (Proc.devRef .tc main_arg9) = x9) :
    StableHlo.after hostOps1 Wv (Proc.devRef .tc main_v19) = Cert.ReferenceIdeal.Read.val_main_v21 (F := Ideal) x2 x9 := by
  host_results
  rewrite [h2, h9]
  rfl
/-- The zero the selection falls back to. -/
theorem s1_cst3 : StableHlo.after hostOps1 Wv (Proc.devRef .tc main_cst_3) = Cert.ReferenceIdeal.Read.val_main_cst_3 (F := Ideal) := by
  host_results
  rfl
theorem s1_arg5 : StableHlo.after hostOps1 Wv (Proc.devRef .tc main_arg5) = Wv (Proc.devRef .tc main_arg5) := by
  host_results
theorem s1_arg6 : StableHlo.after hostOps1 Wv (Proc.devRef .tc main_arg6) = Wv (Proc.devRef .tc main_arg6) := by
  host_results
theorem s1_arg7 : StableHlo.after hostOps1 Wv (Proc.devRef .tc main_arg7) = Wv (Proc.devRef .tc main_arg7) := by
  host_results
theorem s1_arg8 : StableHlo.after hostOps1 Wv (Proc.devRef .tc main_arg8) = Wv (Proc.devRef .tc main_arg8) := by
  host_results
theorem s1_arg10 : StableHlo.after hostOps1 Wv (Proc.devRef .tc main_arg10) = Wv (Proc.devRef .tc main_arg10) := by
  host_results
theorem s1_arg11 : StableHlo.after hostOps1 Wv (Proc.devRef .tc main_arg11) = Wv (Proc.devRef .tc main_arg11) := by
  host_results

/-! ## Second stretch: the selection (a called function): the factor where the degree is positive, zero elsewhere -/

/-- The degree factor. -/
theorem s2_v20 (x2 : (⟨S1000000, .f32⟩ : BufTy).Contents (Elt Ideal)) (x9 : (⟨S2x1000000, .i32⟩ : BufTy).Contents (Elt Ideal))
    (h16 : Wv (Proc.devRef .tc main_v16) = Cert.ReferenceIdeal.Read.val_main_v18 (F := Ideal) x2 x9) (h19 : Wv (Proc.devRef .tc main_v19) = Cert.ReferenceIdeal.Read.val_main_v21 (F := Ideal) x2 x9)
    (hc : Wv (Proc.devRef .tc main_cst_3) = Cert.ReferenceIdeal.Read.val_main_cst_3 (F := Ideal)) :
    StableHlo.after hostOps1_1 Wv (Proc.devRef .tc main_v20) = Cert.ReferenceIdeal.Read.val_main_v22 (F := Ideal) x2 x9 := by
  have h : StableHlo.after hostOps1_1 Wv (Proc.devRef .tc main_v20)
      = select (Wv (Proc.devRef .tc main_v16)) (Wv (Proc.devRef .tc main_v19)) (broadcastInDim S100000 ![] bcast_S_S100000 (id (Wv (Proc.devRef .tc main_cst_3)))) := by
    host_results
    rfl
  rewrite [h, h16, h19, hc]
  rfl
theorem s2_v2 : StableHlo.after hostOps1_1 Wv (Proc.devRef .tc main_v2) = Wv (Proc.devRef .tc main_v2) := by
  host_results
theorem s2_v8 : StableHlo.after hostOps1_1 Wv (Proc.devRef .tc main_v8) = Wv (Proc.devRef .tc main_v8) := by
  host_results
theorem s2_v9 : StableHlo.after hostOps1_1 Wv (Proc.devRef .tc main_v9) = Wv (Proc.devRef .tc main_v9) := by
  host_results
theorem s2_v11 : StableHlo.after hostOps1_1 Wv (Proc.devRef .tc main_v11) = Wv (Proc.devRef .tc main_v11) := by
  host_results
theorem s2_arg5 : StableHlo.after hostOps1_1 Wv (Proc.devRef .tc main_arg5) = Wv (Proc.devRef .tc main_arg5) := by
  host_results
theorem s2_arg6 : StableHlo.after hostOps1_1 Wv (Proc.devRef .tc main_arg6) = Wv (Proc.devRef .tc main_arg6) := by
  host_results
theorem s2_arg7 : StableHlo.after hostOps1_1 Wv (Proc.devRef .tc main_arg7) = Wv (Proc.devRef .tc main_arg7) := by
  host_results
theorem s2_arg8 : StableHlo.after hostOps1_1 Wv (Proc.devRef .tc main_arg8) = Wv (Proc.devRef .tc main_arg8) := by
  host_results
theorem s2_arg10 : StableHlo.after hostOps1_1 Wv (Proc.devRef .tc main_arg10) = Wv (Proc.devRef .tc main_arg10) := by
  host_results
theorem s2_arg11 : StableHlo.after hostOps1_1 Wv (Proc.devRef .tc main_arg11) = Wv (Proc.devRef .tc main_arg11) := by
  host_results

/-! ## Third stretch: the edge normalisation: source factor times weight times target factor -/

/-- The edge normalisation. -/
theorem s3_v36 (x2 : (⟨S1000000, .f32⟩ : BufTy).Contents (Elt Ideal)) (x9 : (⟨S2x1000000, .i32⟩ : BufTy).Contents (Elt Ideal))
    (h8 : Wv (Proc.devRef .tc main_v8) = Cert.ReferenceIdeal.Read.val_main_v10 (F := Ideal) x9) (h9 : Wv (Proc.devRef .tc main_v9) = Cert.ReferenceIdeal.Read.val_main_v11 (F := Ideal) x9) (h11 : Wv (Proc.devRef .tc main_v11) = Cert.ReferenceIdeal.Read.val_main_v13 (F := Ideal) x2) (h20 : Wv (Proc.devRef .tc main_v20) = Cert.ReferenceIdeal.Read.val_main_v22 (F := Ideal) x2 x9) :
    StableHlo.after hostOps1_2 Wv (Proc.devRef .tc main_v36) = Cert.ReferenceIdeal.Read.val_main_v38 (F := Ideal) x2 x9 := by
  host_results
  rewrite [h8, h9, h11, h20]
  rfl
theorem s3_v2 : StableHlo.after hostOps1_2 Wv (Proc.devRef .tc main_v2) = Wv (Proc.devRef .tc main_v2) := by
  host_results
theorem s3_v8 : StableHlo.after hostOps1_2 Wv (Proc.devRef .tc main_v8) = Wv (Proc.devRef .tc main_v8) := by
  host_results
theorem s3_v9 : StableHlo.after hostOps1_2 Wv (Proc.devRef .tc main_v9) = Wv (Proc.devRef .tc main_v9) := by
  host_results
theorem s3_arg5 : StableHlo.after hostOps1_2 Wv (Proc.devRef .tc main_arg5) = Wv (Proc.devRef .tc main_arg5) := by
  host_results
theorem s3_arg6 : StableHlo.after hostOps1_2 Wv (Proc.devRef .tc main_arg6) = Wv (Proc.devRef .tc main_arg6) := by
  host_results
theorem s3_arg7 : StableHlo.after hostOps1_2 Wv (Proc.devRef .tc main_arg7) = Wv (Proc.devRef .tc main_arg7) := by
  host_results
theorem s3_arg8 : StableHlo.after hostOps1_2 Wv (Proc.devRef .tc main_arg8) = Wv (Proc.devRef .tc main_arg8) := by
  host_results
theorem s3_arg10 : StableHlo.after hostOps1_2 Wv (Proc.devRef .tc main_arg10) = Wv (Proc.devRef .tc main_arg10) := by
  host_results
theorem s3_arg11 : StableHlo.after hostOps1_2 Wv (Proc.devRef .tc main_arg11) = Wv (Proc.devRef .tc main_arg11) := by
  host_results

end Cert.KernelIdeal.HostSteps

end
-- ==== Proof.Bound2.lean ====
/-
  The buffers before and after region 1.

  Between regions 0 and 1 the host joins the document features with the word projection, builds the edge lists with a
  self loop per node (sources, targets, weights), sums the weights into each target's degree, takes the reciprocal
  square root where the degree is positive, and multiplies source factor, weight and target factor into the edge
  normalisation. These are the reference's own operations on the same arrays in the same order, so each buffer holds the
  reference's stage of the launched arguments. Region 1 then leaves the reference's first-layer transform.
-/
import proofs.«157233_j12919261626719_1_alg».proof.Proof.Bound1
import proofs.«157233_j12919261626719_1_alg».proof.Proof.Region1
import proofs.«157233_j12919261626719_1_alg».proof.Proof.HostStepsA
import Idealize.ShloMosaic.Lib.StableHlo.Run

set_option maxRecDepth 16384

noncomputable section

namespace Cert.KernelIdeal.Bounds

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## After the first stretch -/

/-- The node features. -/
theorem W3_v2 (c : Dev nD) : W3 m ρ c (Proc.devRef .tc main_v2) = Cert.ReferenceIdeal.Read.val_main_v4 (F := Ideal) (m ((c : Thread nD τ).loc main_arg0)) (m ((c : Thread nD τ).loc main_arg1)) (m ((c : Thread nD τ).loc main_arg3)) (m ((c : Thread nD τ).loc main_arg4)) :=
  HostSteps.s1_v2 (W2 m ρ c) _ _ _ _ (W2_arg0 m ρ c) (W2_v1 m ρ c)
/-- The edge sources. -/
theorem W3_v8 (c : Dev nD) : W3 m ρ c (Proc.devRef .tc main_v8) = Cert.ReferenceIdeal.Read.val_main_v10 (F := Ideal) (m ((c : Thread nD τ).loc main_arg9)) :=
  HostSteps.s1_v8 (W2 m ρ c) _ (W2_arg9 m ρ c)
/-- The edge targets. -/
theorem W3_v9 (c : Dev nD) : W3 m ρ c (Proc.devRef .tc main_v9) = Cert.ReferenceIdeal.Read.val_main_v11 (F := Ideal) (m ((c : Thread nD τ).loc main_arg9)) :=
  HostSteps.s1_v9 (W2 m ρ c) _ (W2_arg9 m ρ c)
/-- The edge weights. -/
theorem W3_v11 (c : Dev nD) : W3 m ρ c (Proc.devRef .tc main_v11) = Cert.ReferenceIdeal.Read.val_main_v13 (F := Ideal) (m ((c : Thread nD τ).loc main_arg2)) :=
  HostSteps.s1_v11 (W2 m ρ c) _ (W2_arg2 m ρ c)
/-- Where the degree is positive. -/
theorem W3_v16 (c : Dev nD) : W3 m ρ c (Proc.devRef .tc main_v16) = Cert.ReferenceIdeal.Read.val_main_v18 (F := Ideal) (m ((c : Thread nD τ).loc main_arg2)) (m ((c : Thread nD τ).loc main_arg9)) :=
  HostSteps.s1_v16 (W2 m ρ c) _ _ (W2_arg2 m ρ c) (W2_arg9 m ρ c)
/-- The reciprocal square root of the clamped degree. -/
theorem W3_v19 (c : Dev nD) : W3 m ρ c (Proc.devRef .tc main_v19) = Cert.ReferenceIdeal.Read.val_main_v21 (F := Ideal) (m ((c : Thread nD τ).loc main_arg2)) (m ((c : Thread nD τ).loc main_arg9)) :=
  HostSteps.s1_v19 (W2 m ρ c) _ _ (W2_arg2 m ρ c) (W2_arg9 m ρ c)
/-- The zero the selection falls back to. -/
theorem W3_cst_3 (c : Dev nD) : W3 m ρ c (Proc.devRef .tc main_cst_3) = Cert.ReferenceIdeal.Read.val_main_cst_3 (F := Ideal) :=
  HostSteps.s1_cst3 (W2 m ρ c)
theorem W3_arg5 (c : Dev nD) : W3 m ρ c (Proc.devRef .tc main_arg5) = (m ((c : Thread nD τ).loc main_arg5)) :=
  (HostSteps.s1_arg5 (W2 m ρ c)).trans (W2_arg5 m ρ c)
theorem W3_arg6 (c : Dev nD) : W3 m ρ c (Proc.devRef .tc main_arg6) = (m ((c : Thread nD τ).loc main_arg6)) :=
  (HostSteps.s1_arg6 (W2 m ρ c)).trans (W2_arg6 m ρ c)
theorem W3_arg7 (c : Dev nD) : W3 m ρ c (Proc.devRef .tc main_arg7) = (m ((c : Thread nD τ).loc main_arg7)) :=
  (HostSteps.s1_arg7 (W2 m ρ c)).trans (W2_arg7 m ρ c)
theorem W3_arg8 (c : Dev nD) : W3 m ρ c (Proc.devRef .tc main_arg8) = (m ((c : Thread nD τ).loc main_arg8)) :=
  (HostSteps.s1_arg8 (W2 m ρ c)).trans (W2_arg8 m ρ c)
theorem W3_arg10 (c : Dev nD) : W3 m ρ c (Proc.devRef .tc main_arg10) = (m ((c : Thread nD τ).loc main_arg10)) :=
  (HostSteps.s1_arg10 (W2 m ρ c)).trans (W2_arg10 m ρ c)
theorem W3_arg11 (c : Dev nD) : W3 m ρ c (Proc.devRef .tc main_arg11) = (m ((c : Thread nD τ).loc main_arg11)) :=
  (HostSteps.s1_arg11 (W2 m ρ c)).trans (W2_arg11 m ρ c)

/-! ## After the selection -/

/-- The degree factor. -/
theorem W4_v20 (c : Dev nD) : W4 m ρ c (Proc.devRef .tc main_v20) = Cert.ReferenceIdeal.Read.val_main_v22 (F := Ideal) (m ((c : Thread nD τ).loc main_arg2)) (m ((c : Thread nD τ).loc main_arg9)) :=
  HostSteps.s2_v20 (W3 m ρ c) _ _ (W3_v16 m ρ c) (W3_v19 m ρ c) (W3_cst_3 m ρ c)
theorem W4_v2 (c : Dev nD) : W4 m ρ c (Proc.devRef .tc main_v2) = Cert.ReferenceIdeal.Read.val_main_v4 (F := Ideal) (m ((c : Thread nD τ).loc main_arg0)) (m ((c : Thread nD τ).loc main_arg1)) (m ((c : Thread nD τ).loc main_arg3)) (m ((c : Thread nD τ).loc main_arg4)) :=
  (HostSteps.s2_v2 (W3 m ρ c)).trans (W3_v2 m ρ c)
theorem W4_v8 (c : Dev nD) : W4 m ρ c (Proc.devRef .tc main_v8) = Cert.ReferenceIdeal.Read.val_main_v10 (F := Ideal) (m ((c : Thread nD τ).loc main_arg9)) :=
  (HostSteps.s2_v8 (W3 m ρ c)).trans (W3_v8 m ρ c)
theorem W4_v9 (c : Dev nD) : W4 m ρ c (Proc.devRef .tc main_v9) = Cert.ReferenceIdeal.Read.val_main_v11 (F := Ideal) (m ((c : Thread nD τ).loc main_arg9)) :=
  (HostSteps.s2_v9 (W3 m ρ c)).trans (W3_v9 m ρ c)
theorem W4_v11 (c : Dev nD) : W4 m ρ c (Proc.devRef .tc main_v11) = Cert.ReferenceIdeal.Read.val_main_v13 (F := Ideal) (m ((c : Thread nD τ).loc main_arg2)) :=
  (HostSteps.s2_v11 (W3 m ρ c)).trans (W3_v11 m ρ c)
theorem W4_arg5 (c : Dev nD) : W4 m ρ c (Proc.devRef .tc main_arg5) = (m ((c : Thread nD τ).loc main_arg5)) :=
  (HostSteps.s2_arg5 (W3 m ρ c)).trans (W3_arg5 m ρ c)
theorem W4_arg6 (c : Dev nD) : W4 m ρ c (Proc.devRef .tc main_arg6) = (m ((c : Thread nD τ).loc main_arg6)) :=
  (HostSteps.s2_arg6 (W3 m ρ c)).trans (W3_arg6 m ρ c)
theorem W4_arg7 (c : Dev nD) : W4 m ρ c (Proc.devRef .tc main_arg7) = (m ((c : Thread nD τ).loc main_arg7)) :=
  (HostSteps.s2_arg7 (W3 m ρ c)).trans (W3_arg7 m ρ c)
theorem W4_arg8 (c : Dev nD) : W4 m ρ c (Proc.devRef .tc main_arg8) = (m ((c : Thread nD τ).loc main_arg8)) :=
  (HostSteps.s2_arg8 (W3 m ρ c)).trans (W3_arg8 m ρ c)
theorem W4_arg10 (c : Dev nD) : W4 m ρ c (Proc.devRef .tc main_arg10) = (m ((c : Thread nD τ).loc main_arg10)) :=
  (HostSteps.s2_arg10 (W3 m ρ c)).trans (W3_arg10 m ρ c)
theorem W4_arg11 (c : Dev nD) : W4 m ρ c (Proc.devRef .tc main_arg11) = (m ((c : Thread nD τ).loc main_arg11)) :=
  (HostSteps.s2_arg11 (W3 m ρ c)).trans (W3_arg11 m ρ c)

/-! ## Before region 1 -/

/-- The edge normalisation. -/
theorem W5_v36 (c : Dev nD) : W5 m ρ c (Proc.devRef .tc main_v36) = Cert.ReferenceIdeal.Read.val_main_v38 (F := Ideal) (m ((c : Thread nD τ).loc main_arg2)) (m ((c : Thread nD τ).loc main_arg9)) :=
  HostSteps.s3_v36 (W4 m ρ c) _ _ (W4_v8 m ρ c) (W4_v9 m ρ c) (W4_v11 m ρ c) (W4_v20 m ρ c)
theorem W5_v2 (c : Dev nD) : W5 m ρ c (Proc.devRef .tc main_v2) = Cert.ReferenceIdeal.Read.val_main_v4 (F := Ideal) (m ((c : Thread nD τ).loc main_arg0)) (m ((c : Thread nD τ).loc main_arg1)) (m ((c : Thread nD τ).loc main_arg3)) (m ((c : Thread nD τ).loc main_arg4)) :=
  (HostSteps.s3_v2 (W4 m ρ c)).trans (W4_v2 m ρ c)
theorem W5_v8 (c : Dev nD) : W5 m ρ c (Proc.devRef .tc main_v8) = Cert.ReferenceIdeal.Read.val_main_v10 (F := Ideal) (m ((c : Thread nD τ).loc main_arg9)) :=
  (HostSteps.s3_v8 (W4 m ρ c)).trans (W4_v8 m ρ c)
theorem W5_v9 (c : Dev nD) : W5 m ρ c (Proc.devRef .tc main_v9) = Cert.ReferenceIdeal.Read.val_main_v11 (F := Ideal) (m ((c : Thread nD τ).loc main_arg9)) :=
  (HostSteps.s3_v9 (W4 m ρ c)).trans (W4_v9 m ρ c)
theorem W5_arg5 (c : Dev nD) : W5 m ρ c (Proc.devRef .tc main_arg5) = (m ((c : Thread nD τ).loc main_arg5)) :=
  (HostSteps.s3_arg5 (W4 m ρ c)).trans (W4_arg5 m ρ c)
theorem W5_arg6 (c : Dev nD) : W5 m ρ c (Proc.devRef .tc main_arg6) = (m ((c : Thread nD τ).loc main_arg6)) :=
  (HostSteps.s3_arg6 (W4 m ρ c)).trans (W4_arg6 m ρ c)
theorem W5_arg7 (c : Dev nD) : W5 m ρ c (Proc.devRef .tc main_arg7) = (m ((c : Thread nD τ).loc main_arg7)) :=
  (HostSteps.s3_arg7 (W4 m ρ c)).trans (W4_arg7 m ρ c)
theorem W5_arg8 (c : Dev nD) : W5 m ρ c (Proc.devRef .tc main_arg8) = (m ((c : Thread nD τ).loc main_arg8)) :=
  (HostSteps.s3_arg8 (W4 m ρ c)).trans (W4_arg8 m ρ c)
theorem W5_arg10 (c : Dev nD) : W5 m ρ c (Proc.devRef .tc main_arg10) = (m ((c : Thread nD τ).loc main_arg10)) :=
  (HostSteps.s3_arg10 (W4 m ρ c)).trans (W4_arg10 m ρ c)
theorem W5_arg11 (c : Dev nD) : W5 m ρ c (Proc.devRef .tc main_arg11) = (m ((c : Thread nD τ).loc main_arg11)) :=
  (HostSteps.s3_arg11 (W4 m ρ c)).trans (W4_arg11 m ρ c)

/-! ## After region 1 -/

/-- Region 1's result array is the reference's first-layer transform of the launched arguments. -/
theorem W6_v37 (c : Dev nD) :
    W6 m ρ c (Proc.devRef .tc main_v37) = Cert.ReferenceIdeal.Read.val_main_v39 (F := Ideal) (m ((c : Thread nD τ).loc main_arg0)) (m ((c : Thread nD τ).loc main_arg1)) (m ((c : Thread nD τ).loc main_arg3)) (m ((c : Thread nD τ).loc main_arg4)) (m ((c : Thread nD τ).loc main_arg5)) := by
  refine (W6_arr m ρ c 2).trans ?_
  refine (Region1.final (V5 m ρ) c).trans ?_
  show product (M := 100000) (K := 768) (N := 64) (W5 m ρ c (Proc.devRef .tc main_v2)) (W5 m ρ c (Proc.devRef .tc main_arg5)) = _
  rewrite [W5_v2 m ρ c, W5_arg5 m ρ c]
  exact (Cert.ReferenceIdeal.Stages.layer1_eq _ _ _ _ _).symm
theorem W6_v8 (c : Dev nD) : W6 m ρ c (Proc.devRef .tc main_v8) = Cert.ReferenceIdeal.Read.val_main_v10 (F := Ideal) (m ((c : Thread nD τ).loc main_arg9)) :=
  (W6_of_ne m ρ c main_v8 (by decide)).trans (W5_v8 m ρ c)
theorem W6_v9 (c : Dev nD) : W6 m ρ c (Proc.devRef .tc main_v9) = Cert.ReferenceIdeal.Read.val_main_v11 (F := Ideal) (m ((c : Thread nD τ).loc main_arg9)) :=
  (W6_of_ne m ρ c main_v9 (by decide)).trans (W5_v9 m ρ c)
theorem W6_v36 (c : Dev nD) : W6 m ρ c (Proc.devRef .tc main_v36) = Cert.ReferenceIdeal.Read.val_main_v38 (F := Ideal) (m ((c : Thread nD τ).loc main_arg2)) (m ((c : Thread nD τ).loc main_arg9)) :=
  (W6_of_ne m ρ c main_v36 (by decide)).trans (W5_v36 m ρ c)
theorem W6_arg6 (c : Dev nD) : W6 m ρ c (Proc.devRef .tc main_arg6) = (m ((c : Thread nD τ).loc main_arg6)) :=
  (W6_of_ne m ρ c main_arg6 (by decide)).trans (W5_arg6 m ρ c)
theorem W6_arg7 (c : Dev nD) : W6 m ρ c (Proc.devRef .tc main_arg7) = (m ((c : Thread nD τ).loc main_arg7)) :=
  (W6_of_ne m ρ c main_arg7 (by decide)).trans (W5_arg7 m ρ c)
theorem W6_arg8 (c : Dev nD) : W6 m ρ c (Proc.devRef .tc main_arg8) = (m ((c : Thread nD τ).loc main_arg8)) :=
  (W6_of_ne m ρ c main_arg8 (by decide)).trans (W5_arg8 m ρ c)
theorem W6_arg10 (c : Dev nD) : W6 m ρ c (Proc.devRef .tc main_arg10) = (m ((c : Thread nD τ).loc main_arg10)) :=
  (W6_of_ne m ρ c main_arg10 (by decide)).trans (W5_arg10 m ρ c)
theorem W6_arg11 (c : Dev nD) : W6 m ρ c (Proc.devRef .tc main_arg11) = (m ((c : Thread nD τ).loc main_arg11)) :=
  (W6_of_ne m ρ c main_arg11 (by decide)).trans (W5_arg11 m ρ c)

end Cert.KernelIdeal.Bounds

end
-- ==== Proof.Region2.lean ====
/-
  Region 2 (the second layer's transform with the first layer's bias and rectifier fused in), read as a value.

  Fifty grid points. Point `t` fetches rows 2000·t … 2000·t + 1999 of the aggregated features (window 0), the one-row
  bias (window 1) and the whole weight matrix (window 2), and writes back the same rows of the result (window 3):
  entry (p, q) of its block is the sum over `k` of max (agg (2000·t + p, k) + bias (0, k), 0) · weights (k, q). The
  fifty blocks tile the 100000 rows, so after the region the result array is `Spec.reluProduct` of the three arrays the
  region found.
-/
import proofs.«157233_j12919261626719_1_alg».proof.Proof.Gen.KernelIdeal.Frame
import proofs.«157233_j12919261626719_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Region2

open Cert.KernelIdeal Cert.KernelIdeal.Gen Cert.Spec
open Idealize.ShloMosaic Idealize.ShloMosaic.TcCoe Idealize.ShloMosaic.ValueIdx Idealize.SL.Sem
open Idealize.ShloMosaic.Pipeline (Dat Cfg Window)

/-! ## The body's stored value at an entry of its block -/

theorem hz : (![0, 0] : Fin 2 → Nat) = fun _ => 0 := funext fun a => by fin_cases a <;> rfl

/-- The left operand's index at output entry `i` and contraction index `q`: row `i 0`. -/
theorem lhs_row (i : S2000x64.Idx) (q : dot_S2000x64_S64x64_S2000x64_1_0_0_1_n_n.contr.Idx) : (dot_S2000x64_S64x64_S2000x64_1_0_0_1_n_n.lhsIdx i q 0).val = (i 0).val := by
  unfold DotDims.lhsIdx
  rw [dif_neg (show ¬(0 : Fin S2000x64.rank) ∈ dot_S2000x64_S64x64_S2000x64_1_0_0_1_n_n.lhsBatch by decide), dif_pos (show (0 : Fin S2000x64.rank) ∈ dot_S2000x64_S64x64_S2000x64_1_0_0_1_n_n.lhsNonContracting by decide)]
  rfl
/-- The right operand's index at output entry `i` and contraction index `q`: column `i 1`. -/
theorem rhs_col (i : S2000x64.Idx) (q : dot_S2000x64_S64x64_S2000x64_1_0_0_1_n_n.contr.Idx) : (dot_S2000x64_S64x64_S2000x64_1_0_0_1_n_n.rhsIdx i q 1).val = (i 1).val := by
  unfold DotDims.rhsIdx
  rw [dif_neg (show ¬(1 : Fin S64x64.rank) ∈ dot_S2000x64_S64x64_S2000x64_1_0_0_1_n_n.rhsBatch by decide), dif_pos (show (1 : Fin S64x64.rank) ∈ dot_S2000x64_S64x64_S2000x64_1_0_0_1_n_n.rhsNonContracting by decide)]
  rfl

/-- The block product into a zero accumulator, read at entry (p, q): row `p` of the left block against column `q` of the
    right operand, the contraction index running over `Fin 64` in its own order. -/
theorem matmul_entry (l : FVec Ideal S2000x64 .bf16) (r : FVec Ideal S64x64 .bf16) (p : Fin 2000) (q : Fin 64) :
    matmul dot_S2000x64_S64x64_S2000x64_1_0_0_1_n_n none l r (constant S2000x64 .f32 0x00000000#32) (ix2 p q) = rowDot (M := 2000) (K := 64) (N := 64) l r p q := by
  refine (Ideal.matmul_constant_zero_apply dot_S2000x64_S64x64_S2000x64_1_0_0_1_n_n none l r (ix2 p q)).trans ?_
  unfold rowDot
  rw [← Equiv.sum_comp (contrEquiv1 dot_S2000x64_S64x64_S2000x64_1_0_0_1_n_n 64 rfl rfl).symm]
  refine Finset.sum_congr rfl fun k _ => ?_
  have hk := contrEquiv1_symm_val dot_S2000x64_S64x64_S2000x64_1_0_0_1_n_n 64 rfl rfl k
  have el : dot_S2000x64_S64x64_S2000x64_1_0_0_1_n_n.lhsIdx (ix2 p q) ((contrEquiv1 dot_S2000x64_S64x64_S2000x64_1_0_0_1_n_n 64 rfl rfl).symm k) = ix2 p k := funext fun a => Fin.ext (by
    match a with
    | ⟨0, _⟩ => exact lhs_row _ _
    | ⟨1, _⟩ => exact (dot_S2000x64_S64x64_S2000x64_1_0_0_1_n_n.lhsIdx_val_of_single rfl (ix2 p q) _).trans hk)
  have er : dot_S2000x64_S64x64_S2000x64_1_0_0_1_n_n.rhsIdx (ix2 p q) ((contrEquiv1 dot_S2000x64_S64x64_S2000x64_1_0_0_1_n_n 64 rfl rfl).symm k) = ix2 k q := funext fun a => Fin.ext (by
    match a with
    | ⟨0, _⟩ => exact (dot_S2000x64_S64x64_S2000x64_1_0_0_1_n_n.rhsIdx_val_of_single rfl (ix2 p q) _).trans hk
    | ⟨1, _⟩ => exact rhs_col _ _)
  rw [el, er]

/-- Entry (p, q) of what the body stores: row `p` of the block, its bias added and the rectifier applied entry by
    entry, against column `q` of the weights. -/
theorem pay_apply (x0 : Vec Ideal S2000x64 .f32) (x1 : Vec Ideal S1x64 .f32) (x2 : Vec Ideal S64x64 .f32) (p : Fin 2000) (q : Fin 64) :
    k2_pay1 (F := Ideal) x0 x1 x2 (ix2 p q)
      = rowDot (M := 2000) (K := 64) (N := 64) (fun j => max (x0 j + x1 (ix2 (0 : Fin 1) (j 1))) (Ideal.ofBits .f32 0x00000000#32)) x2 p q := by
  unfold k2_pay1
  refine (matmul_entry _ _ p q).trans ?_
  unfold rowDot
  refine Finset.sum_congr rfl fun k _ => ?_
  refine congrArg (· * x2 (ix2 k q)) ?_
  show max (shapeCast S2000x64 x0 shapeCasts_S2000x64_S2000x64 (ix2 p k)
      + broadcastTo S2000x64 (shapeCast S1x64 x1 shapeCasts_S1x64_S1x64) broadcasts_S1x64_S2000x64 (ix2 p k)) (Ideal.ofBits .f32 0x00000000#32)
    = max (x0 (ix2 p k) + x1 (ix2 (0 : Fin 1) k)) (Ideal.ofBits .f32 0x00000000#32)
  rw [shapeCast_self, shapeCast_self, broadcastTo_1b_ab_apply]

/-- Row `p` of a block against row `r` of the whole array: if the block's row `p` is the array's row `r`, the bias rows
    agree and the weights agree, then the block's entry (p, q) of the fused transform is the array's entry (r, q). -/
theorem rows_agree (z : EReal) (X0 : Vec Ideal S2000x64 .f32) (X1 : Vec Ideal S1x64 .f32) (X2 : Vec Ideal S64x64 .f32)
    (A : Vec Ideal S100000x64 .f32) (b : Vec Ideal S1x64 .f32) (B : Vec Ideal S64x64 .f32) (p : Fin 2000) (r : Fin 100000) (q : Fin 64)
    (h0 : ∀ k : Fin 64, X0 (ix2 p k) = A (ix2 r k)) (h1 : ∀ k : Fin 64, X1 (ix2 (0 : Fin 1) k) = b (ix2 (0 : Fin 1) k))
    (h2 : ∀ k : Fin 64, X2 (ix2 k q) = B (ix2 k q)) :
    rowDot (M := 2000) (K := 64) (N := 64) (fun j => max (X0 j + X1 (ix2 (0 : Fin 1) (j 1))) z) X2 p q
      = reluProduct (M := 100000) (K := 64) (N := 64) z A b B (ix2 r q) := by
  unfold reluProduct rowDot
  refine Finset.sum_congr rfl fun k _ => ?_
  show max (X0 (ix2 p k) + X1 (ix2 (0 : Fin 1) k)) z * X2 (ix2 k q) = max (A (ix2 r k) + b (ix2 (0 : Fin 1) k)) z * B (ix2 k q)
  rw [h0 k, h1 k, h2 k]

/-! ## From blocks to the array -/

section
variable (V : (c : Dev nD) → (b : Ref sig .tc) → Buf (Elt Ideal) ((c : Thread nD τ).loc b))

/-- The printed index maps, decided once over the grid: the row-blocked windows sit at block row `t`, column block 0;
    the whole-array windows stay at block (0, 0); no block of the result overhangs its array. -/
theorem idx_facts : ∀ t : Fin cfg2.N,
    win2_0.index t (0 : Fin 2) = t.val
    ∧ win2_0.index t (1 : Fin 2) = 0
    ∧ win2_1.index t (0 : Fin 2) = 0
    ∧ win2_1.index t (1 : Fin 2) = 0
    ∧ win2_2.index t (0 : Fin 2) = 0
    ∧ win2_2.index t (1 : Fin 2) = 0
    ∧ win2_3.index t (0 : Fin 2) = t.val
    ∧ win2_3.index t (1 : Fin 2) = 0
    ∧ win2_3.xsize (grid2.coords t) (0 : Fin 2) = 2000
    ∧ win2_3.xsize (grid2.coords t) (1 : Fin 2) = 64 :=
  (by decide +kernel : ∀ t : Fin grid2.N, _)

theorem point_lt (t : Fin cfg2.N) : t.val < 50 := by
  have h := t.isLt
  have hN : cfg2.N = 50 := N_2
  omega

/-- Window 0's block at point `t` is rows `2000·t …` of its array: entry (p, k) of the block is entry (2000·t + p, k). -/
theorem read0 (c : Dev nD) (t : Fin cfg2.N) (p : Fin 2000) (k : Fin 64) (h : t.val * 2000 + p.val < 100000) :
    iblk2 V c 0 t (ix2 p k) = V c main_v50 (ix2 (⟨t.val * 2000 + p.val, h⟩ : Fin 100000) k) := by
  obtain ⟨e0, e1, e2, e3, e4, e5, e6, e7, e8, e9⟩ := idx_facts t
  show V c main_v50 (((cfg2.win 0).blk t).view.emb (ix2 p k)) = V c main_v50 _
  refine congrArg _ (funext fun a => Fin.ext ?_)
  match a with
  | ⟨0, _⟩ => show win2_0.index t (0 : Fin 2) * 2000 + 1 * p.val = t.val * 2000 + p.val; omega
  | ⟨1, _⟩ => show win2_0.index t (1 : Fin 2) * 64 + 1 * k.val = k.val; omega

/-- Window 1's block at every point is its whole array. -/
theorem read1 (c : Dev nD) (t : Fin cfg2.N) (p : Fin 1) (k : Fin 64) :
    iblk2 V c 1 t (ix2 p k) = V c main_v51 (ix2 p k) := by
  obtain ⟨e0, e1, e2, e3, e4, e5, e6, e7, e8, e9⟩ := idx_facts t
  show V c main_v51 (((cfg2.win 1).blk t).view.emb (ix2 p k)) = V c main_v51 _
  refine congrArg _ (funext fun a => Fin.ext ?_)
  match a with
  | ⟨0, _⟩ => show win2_1.index t (0 : Fin 2) * 1 + 1 * p.val = p.val; omega
  | ⟨1, _⟩ => show win2_1.index t (1 : Fin 2) * 64 + 1 * k.val = k.val; omega

/-- Window 2's block at every point is its whole array. -/
theorem read2 (c : Dev nD) (t : Fin cfg2.N) (p : Fin 64) (k : Fin 64) :
    iblk2 V c 2 t (ix2 p k) = V c main_arg7 (ix2 p k) := by
  obtain ⟨e0, e1, e2, e3, e4, e5, e6, e7, e8, e9⟩ := idx_facts t
  show V c main_arg7 (((cfg2.win 2).blk t).view.emb (ix2 p k)) = V c main_arg7 _
  refine congrArg _ (funext fun a => Fin.ext ?_)
  match a with
  | ⟨0, _⟩ => show win2_2.index t (0 : Fin 2) * 64 + 1 * p.val = p.val; omega
  | ⟨1, _⟩ => show win2_2.index t (1 : Fin 2) * 64 + 1 * k.val = k.val; omega

/-- WHAT POINT `t` WRITES BACK is block `t` of the whole-array function of the arrays the region found. -/
theorem flushed_eq (c : Dev nD) (t : Fin cfg2.N) :
    (dat2 V c).flushed 3 t = ((cfg2.win 3).blk t).view.read (Elt Ideal) (reluProduct (M := 100000) (K := 64) (N := 64) (Ideal.ofBits .f32 0x00000000#32) (V c main_v50) (V c main_v51) (V c main_arg7)) := by
  show (cfg2.win 3).cut (grid2.coords t) ((dat2 V c).after 3 t) = _
  rw [after2_3]
  unfold out2_3
  rw [View.canon_unit_zero hz]
  simp only [View.ld_unit_zero (S := S2000x64) hz, View.ld_unit_zero (S := S1x64) hz, View.ld_unit_zero (S := S64x64) hz]
  obtain ⟨e0, e1, e2, e3, e4, e5, e6, e7, e8, e9⟩ := idx_facts t
  have hN := point_lt t
  funext j
  obtain ⟨p, q, rfl⟩ : ∃ (p : Fin 2000) (q : Fin 64), j = ix2 p q := ⟨j 0, j 1, eq_ix2 j⟩
  have hrow : t.val * 2000 + p.val < 100000 := by have := p.isLt; omega
  have hemb : ((cfg2.win 3).blk t).view.emb (ix2 p q) = ix2 (⟨t.val * 2000 + p.val, hrow⟩ : Fin 100000) q := funext fun a => Fin.ext (by
    match a with
    | ⟨0, _⟩ => show win2_3.index t (0 : Fin 2) * 2000 + 1 * p.val = t.val * 2000 + p.val; omega
    | ⟨1, _⟩ => show win2_3.index t (1 : Fin 2) * 64 + 1 * q.val = q.val; omega)
  show k2_pay1 (iblk2 V c 0 t) (iblk2 V c 1 t) (iblk2 V c 2 t) (ix2 p q) = (reluProduct (M := 100000) (K := 64) (N := 64) (Ideal.ofBits .f32 0x00000000#32) (V c main_v50) (V c main_v51) (V c main_arg7)) (((cfg2.win 3).blk t).view.emb (ix2 p q))
  rw [hemb]
  refine (pay_apply (iblk2 V c 0 t) (iblk2 V c 1 t) (iblk2 V c 2 t) p q).trans ?_
  exact rows_agree _ _ _ _ _ _ _ p ⟨t.val * 2000 + p.val, hrow⟩ q (fun k => read0 V c t p k hrow) (fun k => read1 V c t 0 k) (fun k => read2 V c t k q)

/-- Every entry of the result array is in SOME point's block: row `r` is in the block of point `r / 2000`. -/
theorem cover (i : S100000x64.Idx) :
    ∃ t : Fin cfg2.N, (cfg2.win 3).flush t = true ∧ i ∈ ((cfg2.win 3).blk t).view.set := by
  have hi0 : (i 0 : Nat) < 100000 := (i 0).isLt
  have hi1 : (i 1 : Nat) < 64 := (i 1).isLt
  have hN : cfg2.N = 50 := N_2
  have ht : (i 0 : Nat) / 2000 < cfg2.N := by rw [hN]; omega
  obtain ⟨e0, e1, e2, e3, e4, e5, e6, e7, e8, e9⟩ := idx_facts ⟨(i 0 : Nat) / 2000, ht⟩
  refine ⟨⟨(i 0 : Nat) / 2000, ht⟩, flush2_3 _, ?_⟩
  show i ∈ ((View.whole main_v52).slice (win2_3.rect ⟨(i 0 : Nat) / 2000, ht⟩)).set
  rw [View.set_slice_whole, Rect.mem_set_unit]
  intro a
  match a with
  | ⟨0, _⟩ =>
    show win2_3.index ⟨(i 0 : Nat) / 2000, ht⟩ 0 * win2_3.size 0 ≤ (i 0 : Nat) ∧ (i 0 : Nat) < win2_3.index ⟨(i 0 : Nat) / 2000, ht⟩ 0 * win2_3.size 0 + win2_3.xsize (grid2.coords ⟨(i 0 : Nat) / 2000, ht⟩) 0
    rw [e6, e8, show win2_3.size 0 = 2000 from rfl]
    show (i 0 : Nat) / 2000 * 2000 ≤ (i 0 : Nat) ∧ (i 0 : Nat) < (i 0 : Nat) / 2000 * 2000 + 2000
    omega
  | ⟨1, _⟩ =>
    show win2_3.index ⟨(i 0 : Nat) / 2000, ht⟩ 1 * win2_3.size 1 ≤ (i 1 : Nat) ∧ (i 1 : Nat) < win2_3.index ⟨(i 0 : Nat) / 2000, ht⟩ 1 * win2_3.size 1 + win2_3.xsize (grid2.coords ⟨(i 0 : Nat) / 2000, ht⟩) 1
    rw [e7, e9]
    omega

/-- THE ARRAY after the region: the whole-array function of the arrays the region found. -/
theorem final (c : Dev nD) : (dat2 V c).arrAt 3 cfg2.N = reluProduct (M := 100000) (K := 64) (N := 64) (Ideal.ofBits .f32 0x00000000#32) (V c main_v50) (V c main_v51) (V c main_arg7) :=
  (dat2 V c).arrAt_eq_of_cover 3 _ (fun t _ => flushed_eq V c t) cover

end

end Cert.KernelIdeal.Region2

end
-- ==== Proof.HostStepsB.lean ====
/-
  The host operations after regions 1 and 2, from ANY entry contents.

  After region 1: each edge's source row of the first-layer transform, scaled by the edge normalisation, added into the
  edge's target row; the first layer's bias reshaped to one row. After region 2: the same aggregation of the
  second-layer transform, the second layer's bias added, and the rows and labels the mask names read out. These are the
  reference's operations, so each buffer reads the reference's stage given that the operands hold its earlier stages.
-/
import proofs.«157233_j12919261626719_1_alg».proof.Proof.Gen.KernelIdeal.Launch
import proofs.«157233_j12919261626719_1_alg».proof.Proof.Gen.ReferenceIdeal.Read
import proofs.«157233_j12919261626719_1_alg».proof.Proof.HostRead

set_option maxRecDepth 16384

noncomputable section

namespace Cert.KernelIdeal.HostSteps

open Cert.KernelIdeal Cert.KernelIdeal.Gen
open Idealize.ShloMosaic Idealize.ShloMosaic.TcCoe Idealize.SL.Sem Idealize.ShloMosaic.StableHlo

variable (Wv : Valuation τ sig (Elt Ideal))

/-! ## Between regions 1 and 2 -/

/-- The first layer's aggregation over the edges. -/
theorem s4_v50 (x0 : (⟨S20000x768, .f32⟩ : BufTy).Contents (Elt Ideal)) (x1 : (⟨S80000x300, .f32⟩ : BufTy).Contents (Elt Ideal)) (x2 : (⟨S1000000, .f32⟩ : BufTy).Contents (Elt Ideal)) (x3 : (⟨S300x768, .f32⟩ : BufTy).Contents (Elt Ideal)) (x4 : (⟨S768, .f32⟩ : BufTy).Contents (Elt Ideal)) (x5 : (⟨S768x64, .f32⟩ : BufTy).Contents (Elt Ideal)) (x9 : (⟨S2x1000000, .i32⟩ : BufTy).Contents (Elt Ideal))
    (h8 : Wv (Proc.devRef .tc main_v8) = Cert.ReferenceIdeal.Read.val_main_v10 (F := Ideal) x9) (h9 : Wv (Proc.devRef .tc main_v9) = Cert.ReferenceIdeal.Read.val_main_v11 (F := Ideal) x9) (h36 : Wv (Proc.devRef .tc main_v36) = Cert.ReferenceIdeal.Read.val_main_v38 (F := Ideal) x2 x9) (h37 : Wv (Proc.devRef .tc main_v37) = Cert.ReferenceIdeal.Read.val_main_v39 (F := Ideal) x0 x1 x3 x4 x5) :
    StableHlo.after hostOps2 Wv (Proc.devRef .tc main_v50) = Cert.ReferenceIdeal.Read.val_main_v52 (F := Ideal) x0 x1 x2 x3 x4 x5 x9 := by
  host_results
  rewrite [h8, h9, h36, h37]
  rfl
/-- The first layer's bias as one row. -/
theorem s4_v51 (x6 : (⟨S64, .f32⟩ : BufTy).Contents (Elt Ideal))
    (h6 : Wv (Proc.devRef .tc main_arg6) = x6) :
    StableHlo.after hostOps2 Wv (Proc.devRef .tc main_v51) = shapeCast S1x64 x6 shapeCasts_S64_S1x64 := by
  host_results
  rewrite [h6]
  rfl
theorem s4_v8 : StableHlo.after hostOps2 Wv (Proc.devRef .tc main_v8) = Wv (Proc.devRef .tc main_v8) := by
  host_results
theorem s4_v9 : StableHlo.after hostOps2 Wv (Proc.devRef .tc main_v9) = Wv (Proc.devRef .tc main_v9) := by
  host_results
theorem s4_v36 : StableHlo.after hostOps2 Wv (Proc.devRef .tc main_v36) = Wv (Proc.devRef .tc main_v36) := by
  host_results
theorem s4_arg7 : StableHlo.after hostOps2 Wv (Proc.devRef .tc main_arg7) = Wv (Proc.devRef .tc main_arg7) := by
  host_results
theorem s4_arg8 : StableHlo.after hostOps2 Wv (Proc.devRef .tc main_arg8) = Wv (Proc.devRef .tc main_arg8) := by
  host_results
theorem s4_arg10 : StableHlo.after hostOps2 Wv (Proc.devRef .tc main_arg10) = Wv (Proc.devRef .tc main_arg10) := by
  host_results
theorem s4_arg11 : StableHlo.after hostOps2 Wv (Proc.devRef .tc main_arg11) = Wv (Proc.devRef .tc main_arg11) := by
  host_results

/-! ## After region 2 -/

/-- The masked rows of the second layer's output. -/
theorem s5_v75 (x0 : (⟨S20000x768, .f32⟩ : BufTy).Contents (Elt Ideal)) (x1 : (⟨S80000x300, .f32⟩ : BufTy).Contents (Elt Ideal)) (x2 : (⟨S1000000, .f32⟩ : BufTy).Contents (Elt Ideal)) (x3 : (⟨S300x768, .f32⟩ : BufTy).Contents (Elt Ideal)) (x4 : (⟨S768, .f32⟩ : BufTy).Contents (Elt Ideal)) (x5 : (⟨S768x64, .f32⟩ : BufTy).Contents (Elt Ideal)) (x6 : (⟨S64, .f32⟩ : BufTy).Contents (Elt Ideal)) (x7 : (⟨S64x64, .f32⟩ : BufTy).Contents (Elt Ideal)) (x8 : (⟨S64, .f32⟩ : BufTy).Contents (Elt Ideal)) (x9 : (⟨S2x1000000, .i32⟩ : BufTy).Contents (Elt Ideal)) (x10 : (⟨S10000, .i32⟩ : BufTy).Contents (Elt Ideal))
    (h8 : Wv (Proc.devRef .tc main_v8) = Cert.ReferenceIdeal.Read.val_main_v10 (F := Ideal) x9) (h9 : Wv (Proc.devRef .tc main_v9) = Cert.ReferenceIdeal.Read.val_main_v11 (F := Ideal) x9) (h36 : Wv (Proc.devRef .tc main_v36) = Cert.ReferenceIdeal.Read.val_main_v38 (F := Ideal) x2 x9) (h52 : Wv (Proc.devRef .tc main_v52) = Cert.ReferenceIdeal.Read.val_main_v57 (F := Ideal) x0 x1 x2 x3 x4 x5 x6 x7 x9) (ha8 : Wv (Proc.devRef .tc main_arg8) = x8) (ha10 : Wv (Proc.devRef .tc main_arg10) = x10) :
    StableHlo.after hostOps3 Wv (Proc.devRef .tc main_v75) = Cert.ReferenceIdeal.Read.val_main_v80 (F := Ideal) x0 x1 x2 x3 x4 x5 x6 x7 x8 x9 x10 := by
  host_results
  rewrite [h8, h9, h36, h52, ha8, ha10]
  rfl
/-- The masked labels. -/
theorem s5_v82 (x10 : (⟨S10000, .i32⟩ : BufTy).Contents (Elt Ideal)) (x11 : (⟨S100000, .i32⟩ : BufTy).Contents (Elt Ideal))
    (ha10 : Wv (Proc.devRef .tc main_arg10) = x10) (ha11 : Wv (Proc.devRef .tc main_arg11) = x11) :
    StableHlo.after hostOps3 Wv (Proc.devRef .tc main_v82) = Cert.ReferenceIdeal.Read.val_main_v87 (F := Ideal) x10 x11 := by
  host_results
  rewrite [ha10, ha11]
  rfl

end Cert.KernelIdeal.HostSteps

end
-- ==== Proof.Bound3.lean ====
/-
  The buffers before and after region 2.

  Between regions 1 and 2 the host gathers each edge's source row of the first-layer transform, scales it by the edge
  normalisation and adds it into the edge's target row, and reshapes the first layer's bias to one row: the reference's
  aggregation, operation for operation. Region 2 then leaves the reference's second-layer transform.
-/
import proofs.«157233_j12919261626719_1_alg».proof.Proof.Bound2
import proofs.«157233_j12919261626719_1_alg».proof.Proof.Region2
import proofs.«157233_j12919261626719_1_alg».proof.Proof.HostStepsB
import Idealize.ShloMosaic.Lib.StableHlo.Run

set_option maxRecDepth 16384

noncomputable section

namespace Cert.KernelIdeal.Bounds

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-! ## Before region 2 -/

/-- The first layer's aggregation over the edges. -/
theorem W7_v50 (c : Dev nD) : W7 m ρ c (Proc.devRef .tc main_v50) = Cert.ReferenceIdeal.Read.val_main_v52 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg9)) :=
  HostSteps.s4_v50 (W6 m ρ c) _ _ _ _ _ _ _ (W6_v8 m ρ c) (W6_v9 m ρ c) (W6_v36 m ρ c) (W6_v37 m ρ c)
/-- The first layer's bias as one row. -/
theorem W7_v51 (c : Dev nD) : W7 m ρ c (Proc.devRef .tc main_v51) = shapeCast S1x64 (m ((c : Thread nD τ).loc main_arg6)) shapeCasts_S64_S1x64 :=
  HostSteps.s4_v51 (W6 m ρ c) _ (W6_arg6 m ρ c)
theorem W7_v8 (c : Dev nD) : W7 m ρ c (Proc.devRef .tc main_v8) = Cert.ReferenceIdeal.Read.val_main_v10 (F := Ideal) (m ((c : Thread nD τ).loc main_arg9)) :=
  (HostSteps.s4_v8 (W6 m ρ c)).trans (W6_v8 m ρ c)
theorem W7_v9 (c : Dev nD) : W7 m ρ c (Proc.devRef .tc main_v9) = Cert.ReferenceIdeal.Read.val_main_v11 (F := Ideal) (m ((c : Thread nD τ).loc main_arg9)) :=
  (HostSteps.s4_v9 (W6 m ρ c)).trans (W6_v9 m ρ c)
theorem W7_v36 (c : Dev nD) : W7 m ρ c (Proc.devRef .tc main_v36) = Cert.ReferenceIdeal.Read.val_main_v38 (F := Ideal) (m ((c : Thread nD τ).loc main_arg2)) (m ((c : Thread nD τ).loc main_arg9)) :=
  (HostSteps.s4_v36 (W6 m ρ c)).trans (W6_v36 m ρ c)
theorem W7_arg7 (c : Dev nD) : W7 m ρ c (Proc.devRef .tc main_arg7) = (m ((c : Thread nD τ).loc main_arg7)) :=
  (HostSteps.s4_arg7 (W6 m ρ c)).trans (W6_arg7 m ρ c)
theorem W7_arg8 (c : Dev nD) : W7 m ρ c (Proc.devRef .tc main_arg8) = (m ((c : Thread nD τ).loc main_arg8)) :=
  (HostSteps.s4_arg8 (W6 m ρ c)).trans (W6_arg8 m ρ c)
theorem W7_arg10 (c : Dev nD) : W7 m ρ c (Proc.devRef .tc main_arg10) = (m ((c : Thread nD τ).loc main_arg10)) :=
  (HostSteps.s4_arg10 (W6 m ρ c)).trans (W6_arg10 m ρ c)
theorem W7_arg11 (c : Dev nD) : W7 m ρ c (Proc.devRef .tc main_arg11) = (m ((c : Thread nD τ).loc main_arg11)) :=
  (HostSteps.s4_arg11 (W6 m ρ c)).trans (W6_arg11 m ρ c)

/-! ## After region 2 -/

/-- Region 2's result array is the reference's second-layer transform of the launched arguments. -/
theorem W8_v52 (c : Dev nD) :
    W8 m ρ c (Proc.devRef .tc main_v52) = Cert.ReferenceIdeal.Read.val_main_v57 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg9)) := by
  refine (W8_arr m ρ c 3).trans ?_
  refine (Region2.final (V7 m ρ) c).trans ?_
  show reluProduct (M := 100000) (K := 64) (N := 64) (Ideal.ofBits .f32 0x00000000#32) (W7 m ρ c (Proc.devRef .tc main_v50)) (W7 m ρ c (Proc.devRef .tc main_v51)) (W7 m ρ c (Proc.devRef .tc main_arg7)) = _
  rewrite [W7_v50 m ρ c, W7_v51 m ρ c, W7_arg7 m ρ c]
  exact (Cert.ReferenceIdeal.Stages.layer2_eq _ _ _ _ _ _ _ _ _ _).symm
theorem W8_v8 (c : Dev nD) : W8 m ρ c (Proc.devRef .tc main_v8) = Cert.ReferenceIdeal.Read.val_main_v10 (F := Ideal) (m ((c : Thread nD τ).loc main_arg9)) :=
  (W8_of_ne m ρ c main_v8 (by decide)).trans (W7_v8 m ρ c)
theorem W8_v9 (c : Dev nD) : W8 m ρ c (Proc.devRef .tc main_v9) = Cert.ReferenceIdeal.Read.val_main_v11 (F := Ideal) (m ((c : Thread nD τ).loc main_arg9)) :=
  (W8_of_ne m ρ c main_v9 (by decide)).trans (W7_v9 m ρ c)
theorem W8_v36 (c : Dev nD) : W8 m ρ c (Proc.devRef .tc main_v36) = Cert.ReferenceIdeal.Read.val_main_v38 (F := Ideal) (m ((c : Thread nD τ).loc main_arg2)) (m ((c : Thread nD τ).loc main_arg9)) :=
  (W8_of_ne m ρ c main_v36 (by decide)).trans (W7_v36 m ρ c)
theorem W8_arg8 (c : Dev nD) : W8 m ρ c (Proc.devRef .tc main_arg8) = (m ((c : Thread nD τ).loc main_arg8)) :=
  (W8_of_ne m ρ c main_arg8 (by decide)).trans (W7_arg8 m ρ c)
theorem W8_arg10 (c : Dev nD) : W8 m ρ c (Proc.devRef .tc main_arg10) = (m ((c : Thread nD τ).loc main_arg10)) :=
  (W8_of_ne m ρ c main_arg10 (by decide)).trans (W7_arg10 m ρ c)
theorem W8_arg11 (c : Dev nD) : W8 m ρ c (Proc.devRef .tc main_arg11) = (m ((c : Thread nD τ).loc main_arg11)) :=
  (W8_of_ne m ρ c main_arg11 (by decide)).trans (W7_arg11 m ρ c)

end Cert.KernelIdeal.Bounds

end
-- ==== Proof.Bound4.lean ====
/-
  The two results of the kernel program's @main.

  After region 2 the host aggregates the second-layer transform over the edges as it did the first, adds the second
  layer's bias, and reads out the rows (and the labels) the mask names: the reference's last operations on the same
  arrays. So each result buffer holds the reference's final stage of the launched arguments.
-/
import proofs.«157233_j12919261626719_1_alg».proof.Proof.Bound3
import Idealize.ShloMosaic.Lib.StableHlo.Run

set_option maxRecDepth 16384

noncomputable section

namespace Cert.KernelIdeal.Bounds

open Cert.KernelIdeal Cert.KernelIdeal.Gen Cert.Spec
open Idealize.ShloMosaic Idealize.ShloMosaic.TcCoe Idealize.SL.Sem Idealize.ShloMosaic.StableHlo

variable (m : (ℓ : Loc nD τ sig) → Buf (Elt Ideal) ℓ) (ρ : Dev nD → PrngReg)

/-- The masked rows of the second layer's output. -/
theorem W9_v75 (c : Dev nD) : W9 m ρ c (Proc.devRef .tc main_v75) = Cert.ReferenceIdeal.Read.val_main_v80 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) :=
  HostSteps.s5_v75 (W8 m ρ c) _ _ _ _ _ _ _ _ _ _ _ (W8_v8 m ρ c) (W8_v9 m ρ c) (W8_v36 m ρ c) (W8_v52 m ρ c) (W8_arg8 m ρ c) (W8_arg10 m ρ c)
/-- The masked labels. -/
theorem W9_v82 (c : Dev nD) : W9 m ρ c (Proc.devRef .tc main_v82) = Cert.ReferenceIdeal.Read.val_main_v87 (F := Ideal) (m ((c : Thread nD τ).loc main_arg10)) (m ((c : Thread nD τ).loc main_arg11)) :=
  HostSteps.s5_v82 (W8 m ρ c) _ _ (W8_arg10 m ρ c) (W8_arg11 m ρ c)

end Cert.KernelIdeal.Bounds

end
-- ==== Proof.lean ====
/-
  The certificate of the graph-convolution kernel against its reference.

  The kernel program computes the word projection, the first layer's transform and the second layer's transform (with
  the first layer's bias and rectifier fused in) in three pallas regions, 2000 rows at a time with the operands cast to
  a narrow float format, and everything else — the edge lists with self loops, the degree normalisation, the two
  aggregations over the edges, the final bias and the masked read-out — on the host, exactly as the reference does.
  Over the extended reals a change of float format is the identity and a product accumulated into zeros is the plain
  sum, so each region leaves in its result array the same whole-array function the reference's `dot_general` stage
  computes (Region0 / Region1 / Region2 against RefStages), and the host operations between the regions are the
  reference's own, applied to equal arrays (Bound1 … Bound4). Hence both programs end with the reference's final stages
  of the launched arguments: equal results, index by index. No law of arithmetic is used beyond reading both sums in the
  same order, so the precondition (finite inputs) is never opened.

  The three frames are the generated ones (for the reference, its generated run with the results dropped); the
  idealization rewrote nothing, so the fourth conjunct is `True`.
-/
import proofs.«157233_j12919261626719_1_alg».proof.Defs
import proofs.«157233_j12919261626719_1_alg».proof.Proof.Gen.Kernel
import proofs.«157233_j12919261626719_1_alg».proof.Proof.Gen.Kernel.Frame
import proofs.«157233_j12919261626719_1_alg».proof.Proof.Gen.KernelIdeal
import proofs.«157233_j12919261626719_1_alg».proof.Proof.Gen.KernelIdeal.Frame
import proofs.«157233_j12919261626719_1_alg».proof.Proof.Gen.ReferenceIdeal
import proofs.«157233_j12919261626719_1_alg».proof.Proof.Gen.Pre_finite_inputs
import proofs.«157233_j12919261626719_1_alg».proof.Proof.Gen.ReferenceIdeal.Run
import proofs.«157233_j12919261626719_1_alg».proof.Proof.Gen.ReferenceIdeal.Read
import proofs.«157233_j12919261626719_1_alg».proof.Proof.Run
import proofs.«157233_j12919261626719_1_alg».proof.Proof.Bound4
import Idealize.ShloMosaic.Adequacy
import Idealize.ShloMosaic.Init

set_option maxRecDepth 16384

noncomputable section

namespace Cert.Proof

open Idealize.ShloMosaic Idealize.SL.Sem

/-! ## The idealized kernel's run, its results named -/

/-- Every weakly fair execution of the idealized kernel program terminates, nothing faulting, with the two results at
    the reference's final stages of the launched arguments and the arguments unchanged: the run with every buffer named
    at the last boundary, the two result buffers read there, each argument walked back to the launch. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
          r.2.mem ((c.tc : Thread Cert.KernelIdeal.nD Cert.KernelIdeal.τ).loc Cert.KernelIdeal.main_v75)
            = Cert.ReferenceIdeal.Read.val_main_v80 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10))
          ∧ r.2.mem ((c.tc : Thread Cert.KernelIdeal.nD Cert.KernelIdeal.τ).loc Cert.KernelIdeal.main_v82)
            = Cert.ReferenceIdeal.Read.val_main_v87 (F := Ideal) (m ((c.tc : Thread Cert.KernelIdeal.nD Cert.KernelIdeal.τ).loc Cert.KernelIdeal.main_arg10)) (m ((c.tc : Thread Cert.KernelIdeal.nD Cert.KernelIdeal.τ).loc Cert.KernelIdeal.main_arg11))
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)) :=
  (θ_run Cert.KernelIdeal.defs _ _).mono (fun r h c =>
      ⟨(h c _ (Cert.KernelIdeal.Whole.mem_unscoped Cert.KernelIdeal.main_v75 (by decide))).trans (Cert.KernelIdeal.Bounds.W9_v75 m ρ c),
       (h c _ (Cert.KernelIdeal.Whole.mem_unscoped Cert.KernelIdeal.main_v82 (by decide))).trans (Cert.KernelIdeal.Bounds.W9_v82 m ρ c),
       (h c _ (Cert.KernelIdeal.Whole.mem_unscoped Cert.KernelIdeal.main_arg0 (by decide))).trans (Cert.KernelIdeal.Gen.W9_main_arg0 m ρ c),
       (h c _ (Cert.KernelIdeal.Whole.mem_unscoped Cert.KernelIdeal.main_arg1 (by decide))).trans (Cert.KernelIdeal.Gen.W9_main_arg1 m ρ c),
       (h c _ (Cert.KernelIdeal.Whole.mem_unscoped Cert.KernelIdeal.main_arg2 (by decide))).trans (Cert.KernelIdeal.Gen.W9_main_arg2 m ρ c),
       (h c _ (Cert.KernelIdeal.Whole.mem_unscoped Cert.KernelIdeal.main_arg3 (by decide))).trans (Cert.KernelIdeal.Gen.W9_main_arg3 m ρ c),
       (h c _ (Cert.KernelIdeal.Whole.mem_unscoped Cert.KernelIdeal.main_arg4 (by decide))).trans (Cert.KernelIdeal.Gen.W9_main_arg4 m ρ c),
       (h c _ (Cert.KernelIdeal.Whole.mem_unscoped Cert.KernelIdeal.main_arg5 (by decide))).trans (Cert.KernelIdeal.Gen.W9_main_arg5 m ρ c),
       (h c _ (Cert.KernelIdeal.Whole.mem_unscoped Cert.KernelIdeal.main_arg6 (by decide))).trans (Cert.KernelIdeal.Gen.W9_main_arg6 m ρ c),
       (h c _ (Cert.KernelIdeal.Whole.mem_unscoped Cert.KernelIdeal.main_arg7 (by decide))).trans (Cert.KernelIdeal.Gen.W9_main_arg7 m ρ c),
       (h c _ (Cert.KernelIdeal.Whole.mem_unscoped Cert.KernelIdeal.main_arg8 (by decide))).trans (Cert.KernelIdeal.Gen.W9_main_arg8 m ρ c),
       (h c _ (Cert.KernelIdeal.Whole.mem_unscoped Cert.KernelIdeal.main_arg9 (by decide))).trans (Cert.KernelIdeal.Gen.W9_main_arg9 m ρ c),
       (h c _ (Cert.KernelIdeal.Whole.mem_unscoped Cert.KernelIdeal.main_arg10 (by decide))).trans (Cert.KernelIdeal.Gen.W9_main_arg10 m ρ c),
       (h c _ (Cert.KernelIdeal.Whole.mem_unscoped Cert.KernelIdeal.main_arg11 (by decide))).trans (Cert.KernelIdeal.Gen.W9_main_arg11 m ρ c)⟩)
    (Cert.KernelIdeal.Whole.run_all m ρ)

/-! ## The claims -/

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2.2) (Cert.ReferenceIdeal.Value.run (F := Ideal) m ρ)

/-- The idealization rewrote no operation. -/
theorem preserves : Cert.preserves_Kernel_KernelIdeal := trivial

/-- Both idealized programs, run from memories that agree on the arguments, end with the reference's final stages of
    those arguments in their result buffers. -/
theorem algebraic : Cert.algebraic_KernelIdeal_ReferenceIdeal := by
  intro m ρ m' ρ' _ hagree
  refine ⟨_, _, kernel_run m ρ, ?_⟩
  refine (θ_run Cert.ReferenceIdeal.defs _ _).mono (fun r h c => ⟨(h c).1.trans ?_, (h c).2.1.trans ?_, (h c).2.2⟩)
    (Cert.ReferenceIdeal.Value.run (F := Ideal) m' ρ')
  · obtain ⟨g0, g1, g2, g3, g4, g5, g6, g7, g8, g9, g10, g11⟩ := hagree c
    rw [Cert.ReferenceIdeal.Read.val_main_v80_eq, g0, g1, g2, g3, g4, g5, g6, g7, g8, g9, g10]
  · obtain ⟨g0, g1, g2, g3, g4, g5, g6, g7, g8, g9, g10, g11⟩ := hagree c
    rw [Cert.ReferenceIdeal.Read.val_main_v87_eq, g10, g11]

theorem claim : Cert.Claim := ⟨Cert.Kernel.Gen.facts, Cert.KernelIdeal.Gen.facts, Cert.ReferenceIdeal.Gen.facts, Cert.Pre_finite_inputs.Gen.facts,
  frame_k, frame_ki, frame_ri, preserves, algebraic⟩

end Cert.Proof

end
